-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_1000" .f32 0x3A83126F#32 ((1 / 1000 : ℝ) : EReal)
  ∧ IdealRules.named_const.Statement Cert.KernelIdeal.κ "inv_600" .f32 0x3ADA740E#32 ((1 / 600 : ℝ) : EReal)
  ∧ IdealRules.named_const.Statement Cert.KernelIdeal.κ "inv_1000" .f32 0x3A83126F#32 ((1 / 1000 : ℝ) : EReal)
  ∧ IdealRules.named_const.Statement Cert.KernelIdeal.κ "inv_600" .f32 0x3ADA740E#32 ((1 / 600 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x320 : Shape := ⟨3, ![1, 32, 320]⟩
abbrev S1x32x81 : Shape := ⟨3, ![1, 32, 81]⟩
abbrev S1x32x4 : Shape := ⟨3, ![1, 32, 4]⟩
abbrev S1x600x1000x3 : Shape := ⟨4, ![1, 600, 1000, 3]⟩
abbrev S80x1x32 : Shape := ⟨3, ![80, 1, 32]⟩
abbrev S_ : Shape := ⟨0, ![]⟩

class Facts : Prop where
  bcast_S_S1x32x320 : S_.BroadcastsInDim S1x32x320 (![] : Fin 0 → Fin S1x32x320.rank)
  reducesTo_S1x32x320_S_d0_1_2 : S1x32x320.ReducesTo [0, 1, 2] S_
  h_S_ : 0 < S_.numel
  bcast_S_S1x32x81 : S_.BroadcastsInDim S1x32x81 (![] : Fin 0 → Fin S1x32x81.rank)
  reducesTo_S1x32x81_S_d0_1_2 : S1x32x81.ReducesTo [0, 1, 2] S_
  bcast_S_S1x32x4 : S_.BroadcastsInDim S1x32x4 (![] : Fin 0 → Fin S1x32x4.rank)
  reducesTo_S1x32x4_S_d0_1_2 : S1x32x4.ReducesTo [0, 1, 2] S_
  bcast_S_S1x600x1000x3 : S_.BroadcastsInDim S1x600x1000x3 (![] : Fin 0 → Fin S1x600x1000x3.rank)
  reducesTo_S1x600x1000x3_S_d0_1_2_3 : S1x600x1000x3.ReducesTo [0, 1, 2, 3] S_

variable [Facts]

def fn_part1 {F : FTy → Type} [FloatOps F] (main_v13 : IVec S_ 1) (main_v16 : IVec S1x600x1000x3 1) : IVec S_ 1 :=
  let main_c_5 : IVec S_ 1 := constantI S_ 1 1#1
  let main_v17 : IVec S_ 1 := (fun x v => Host.reduce IntOp.andi x v reducesTo_S1x600x1000x3_S_d0_1_2_3 h_S_) main_v16 main_c_5
  let main_v18 : IVec S_ 1 := andi main_v13 main_v17
  main_v18

def fn {F : FTy → Type} [FloatOps F] (main_arg0 : FVec F S1x32x320 .f32) (main_arg1 : FVec F S1x32x81 .f32) (main_arg2 : FVec F S1x32x4 .f32) (main_arg3 : FVec F S1x600x1000x3 .f32) (main_arg4 : IVec S80x1x32 32) : IVec S_ 1 :=
  let main_v0 : FVec F S1x32x320 .f32 := Host.absf main_arg0
  let main_cst : FVec F S_ .f32 := constant S_ .f32 0x7F800000#32
  let main_v1 : FVec F S1x32x320 .f32 := broadcastInDim S1x32x320 ![] bcast_S_S1x32x320 main_cst
  let main_v2 : IVec S1x32x320 1 := cmpf .olt main_v0 main_v1
  let main_c : IVec S_ 1 := constantI S_ 1 1#1
  let main_v3 : IVec S_ 1 := (fun x v => Host.reduce IntOp.andi x v reducesTo_S1x32x320_S_d0_1_2 h_S_) main_v2 main_c
  let main_v4 : FVec F S1x32x81 .f32 := Host.absf main_arg1
  let main_cst_0 : FVec F S_ .f32 := constant S_ .f32 0x7F800000#32
  let main_v5 : FVec F S1x32x81 .f32 := broadcastInDim S1x32x81 ![] bcast_S_S1x32x81 main_cst_0
  let main_v6 : IVec S1x32x81 1 := cmpf .olt main_v4 main_v5
  let main_c_1 : IVec S_ 1 := constantI S_ 1 1#1
  let main_v7 : IVec S_ 1 := (fun x v => Host.reduce IntOp.andi x v reducesTo_S1x32x81_S_d0_1_2 h_S_) main_v6 main_c_1
  let main_v8 : IVec S_ 1 := andi main_v3 main_v7
  let main_v9 : FVec F S1x32x4 .f32 := Host.absf main_arg2
  let main_cst_2 : FVec F S_ .f32 := constant S_ .f32 0x7F800000#32
  let main_v10 : FVec F S1x32x4 .f32 := broadcastInDim S1x32x4 ![] bcast_S_S1x32x4 main_cst_2
  let main_v11 : IVec S1x32x4 1 := cmpf .olt main_v9 main_v10
  let main_c_3 : IVec S_ 1 := constantI S_ 1 1#1
  let main_v12 : IVec S_ 1 := (fun x v => Host.reduce IntOp.andi x v reducesTo_S1x32x4_S_d0_1_2 h_S_) main_v11 main_c_3
  let main_v13 : IVec S_ 1 := andi main_v8 main_v12
  let main_v14 : FVec F S1x600x1000x3 .f32 := Host.absf main_arg3
  let main_cst_4 : FVec F S_ .f32 := constant S_ .f32 0x7F800000#32
  let main_v15 : FVec F S1x600x1000x3 .f32 := broadcastInDim S1x600x1000x3 ![] bcast_S_S1x600x1000x3 main_cst_4
  let main_v16 : IVec S1x600x1000x3 1 := cmpf .olt main_v14 main_v15
  fn_part1 (F := F) main_v13 main_v16
-- ==== Kernel.lean ====
abbrev S1x32x320 : Shape := ⟨3, ![1, 32, 320]⟩
abbrev S1x32x81 : Shape := ⟨3, ![1, 32, 81]⟩
abbrev S1x32x4 : Shape := ⟨3, ![1, 32, 4]⟩
abbrev S1x600x1000x3 : Shape := ⟨4, ![1, 600, 1000, 3]⟩
abbrev S80x1x32 : Shape := ⟨3, ![80, 1, 32]⟩
abbrev S4 : Shape := ⟨1, ![4]⟩
abbrev S32x320 : Shape := ⟨2, ![32, 320]⟩
abbrev S32x80x4 : Shape := ⟨3, ![32, 80, 4]⟩
abbrev S1x1x4 : Shape := ⟨3, ![1, 1, 4]⟩
abbrev S32x80x1 : Shape := ⟨3, ![32, 80, 1]⟩
abbrev S32x80 : Shape := ⟨2, ![32, 80]⟩
abbrev S32x4 : Shape := ⟨2, ![32, 4]⟩
abbrev S32x81 : Shape := ⟨2, ![32, 81]⟩
abbrev S80x32 : Shape := ⟨2, ![80, 32]⟩
abbrev S80x32x85 : Shape := ⟨3, ![80, 32, 85]⟩
abbrev S32x1 : Shape := ⟨2, ![32, 1]⟩
abbrev S80x32x1 : Shape := ⟨3, ![80, 32, 1]⟩
abbrev S80x32x81 : Shape := ⟨3, ![80, 32, 81]⟩
abbrev S80x1x32x85 : Shape := ⟨4, ![80, 1, 32, 85]⟩

abbrev nBuf : Space → Nat
  | .hbm => 25
  | .vmem => 8
  | .smem => 0
  | _ => 0

abbrev bufTy : (tb : Table) → Fin (tcTables nBuf tb) → BufTy
  | .hbm, ⟨0, _⟩ => ⟨S1x32x320, .f32⟩
  | .hbm, ⟨1, _⟩ => ⟨S1x32x81, .f32⟩
  | .hbm, ⟨2, _⟩ => ⟨S1x32x4, .f32⟩
  | .hbm, ⟨3, _⟩ => ⟨S1x600x1000x3, .f32⟩
  | .hbm, ⟨4, _⟩ => ⟨S80x1x32, .i32⟩
  | .hbm, ⟨5, _⟩ => ⟨S4, .f32⟩
  | .hbm, ⟨6, _⟩ => ⟨S32x320, .f32⟩
  | .hbm, ⟨7, _⟩ => ⟨S32x80x4, .f32⟩
  | .hbm, ⟨8, _⟩ => ⟨S1x1x4, .f32⟩
  | .hbm, ⟨9, _⟩ => ⟨S32x80x4, .f32⟩
  | .hbm, ⟨10, _⟩ => ⟨S32x80x4, .f32⟩
  | .hbm, ⟨11, _⟩ => ⟨S32x80x1, .f32⟩
  | .hbm, ⟨12, _⟩ => ⟨S32x80, .f32⟩
  | .hbm, ⟨13, _⟩ => ⟨S32x80x1, .f32⟩
  | .hbm, ⟨14, _⟩ => ⟨S32x80, .f32⟩
  | .hbm, ⟨15, _⟩ => ⟨S32x80x1, .f32⟩
  | .hbm, ⟨16, _⟩ => ⟨S32x80, .f32⟩
  | .hbm, ⟨17, _⟩ => ⟨S32x80x1, .f32⟩
  | .hbm, ⟨18, _⟩ => ⟨S32x80, .f32⟩
  | .hbm, ⟨19, _⟩ => ⟨S32x4, .f32⟩
  | .hbm, ⟨20, _⟩ => ⟨S32x81, .f32⟩
  | .hbm, ⟨21, _⟩ => ⟨S80x32, .i32⟩
  | .hbm, ⟨22, _⟩ => ⟨S80x32, .f32⟩
  | .hbm, ⟨23, _⟩ => ⟨S80x32x85, .f32⟩
  | .hbm, ⟨24, _⟩ => ⟨S80x1x32x85, .f32⟩
  | .local _ .vmem, ⟨0, _⟩ => ⟨S32x80, .f32⟩
  | .local _ .vmem, ⟨1, _⟩ => ⟨S32x80, .f32⟩
  | .local _ .vmem, ⟨2, _⟩ => ⟨S32x80, .f32⟩
  | .local _ .vmem, ⟨3, _⟩ => ⟨S32x80, .f32⟩
  | .local _ .vmem, ⟨4, _⟩ => ⟨S32x4, .f32⟩
  | .local _ .vmem, ⟨5, _⟩ => ⟨S32x81, .f32⟩
  | .local _ .vmem, ⟨6, _⟩ => ⟨S80x32, .f32⟩
  | .local _ .vmem, ⟨7, _⟩ => ⟨S80x32x85, .f32⟩
  | _, _ => ⟨S1x32x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S32x80 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x81 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S80x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S80x32x85 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  shapeCasts_S1x32x320_S32x320 : S1x32x320.ShapeCasts S32x320
  shapeCasts_S32x320_S32x80x4 : S32x320.ShapeCasts S32x80x4
  bcast_S4_S1x1x4_2 : S4.BroadcastsInDim S1x1x4 (![2] : Fin 1 → Fin S1x1x4.rank)
  bcast_S1x1x4_S32x80x4_0_1_2 : S1x1x4.BroadcastsInDim S32x80x4 (![0, 1, 2] : Fin 3 → Fin S32x80x4.rank)
  slices_S32x80x4_S32x80x1_0_0_0 : S32x80x4.Slices ![0, 0, 0] S32x80x1
  shapeCasts_S32x80x1_S32x80 : S32x80x1.ShapeCasts S32x80
  slices_S32x80x4_S32x80x1_0_0_1 : S32x80x4.Slices ![0, 0, 1] S32x80x1
  slices_S32x80x4_S32x80x1_0_0_2 : S32x80x4.Slices ![0, 0, 2] S32x80x1
  slices_S32x80x4_S32x80x1_0_0_3 : S32x80x4.Slices ![0, 0, 3] S32x80x1
  shapeCasts_S1x32x4_S32x4 : S1x32x4.ShapeCasts S32x4
  shapeCasts_S1x32x81_S32x81 : S1x32x81.ShapeCasts S32x81
  shapeCasts_S80x1x32_S80x32 : S80x1x32.ShapeCasts S80x32
  inb_S32x4_S32x1_0_0 : ∀ a, (![0, 0] : Fin 2 → Nat) a + S32x1.size a ≤ S32x4.size a
  h_S32x1 : 0 < S32x1.numel
  shapeCasts_S32x1_S32x1 : S32x1.ShapeCasts S32x1
  inb_S32x4_S32x1_0_1 : ∀ a, (![0, 1] : Fin 2 → Nat) a + S32x1.size a ≤ S32x4.size a
  inb_S32x4_S32x1_0_2 : ∀ a, (![0, 2] : Fin 2 → Nat) a + S32x1.size a ≤ S32x4.size a
  inb_S32x4_S32x1_0_3 : ∀ a, (![0, 3] : Fin 2 → Nat) a + S32x1.size a ≤ S32x4.size a
  inb_S32x80_S32x80_0_0 : ∀ a, (![0, 0] : Fin 2 → Nat) a + S32x80.size a ≤ S32x80.size a
  h_S32x80 : 0 < S32x80.numel
  shapeCasts_S32x80_S32x80 : S32x80.ShapeCasts S32x80
  broadcasts_S32x1_S32x80 : S32x1.Broadcasts S32x80
  transposes_S32x80_p1_0_S80x32 : S32x80.Transposes [1, 0] S80x32
  inb_S80x32_S80x32_0_0 : ∀ a, (![0, 0] : Fin 2 → Nat) a + S80x32.size a ≤ S80x32.size a
  h_S80x32 : 0 < S80x32.numel
  shapeCasts_S80x32_S80x32 : S80x32.ShapeCasts S80x32
  shapeCasts_S80x32_S80x32x1 : S80x32.ShapeCasts S80x32x1
  inb_S32x81_S32x81_0_0 : ∀ a, (![0, 0] : Fin 2 → Nat) a + S32x81.size a ≤ S32x81.size a
  h_S32x81 : 0 < S32x81.numel
  shapeCasts_S32x81_S32x81 : S32x81.ShapeCasts S32x81
  shapeCasts_S32x81_S1x32x81 : S32x81.ShapeCasts S1x32x81
  shapeCasts_S1x32x81_S1x32x81 : S1x32x81.ShapeCasts S1x32x81
  broadcasts_S1x32x81_S80x32x81 : S1x32x81.Broadcasts S80x32x81
  broadcasts_S80x32x1_S80x32x81 : S80x32x1.Broadcasts S80x32x81
  inb_S80x32x85_S80x32x81_0_0_0 : ∀ a, (![0, 0, 0] : Fin 3 → Nat) a + S80x32x81.size a ≤ S80x32x85.size a
  h_S80x32x81 : 0 < S80x32x81.numel
  inb_S80x32x85_S80x32x1_0_0_81 : ∀ a, (![0, 0, 81] : Fin 3 → Nat) a + S80x32x1.size a ≤ S80x32x85.size a
  h_S80x32x1 : 0 < S80x32x1.numel
  inb_S80x32x85_S80x32x1_0_0_82 : ∀ a, (![0, 0, 82] : Fin 3 → Nat) a + S80x32x1.size a ≤ S80x32x85.size a
  inb_S80x32x85_S80x32x1_0_0_83 : ∀ a, (![0, 0, 83] : Fin 3 → Nat) a + S80x32x1.size a ≤ S80x32x85.size a
  inb_S80x32x85_S80x32x1_0_0_84 : ∀ a, (![0, 0, 84] : Fin 3 → Nat) a + S80x32x1.size a ≤ S80x32x85.size a
  bcast_S80x32x85_S80x1x32x85_0_2_3 : S80x32x85.BroadcastsInDim S80x1x32x85 (![0, 2, 3] : Fin 3 → Fin S80x1x32x85.rank)
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x80.size a ≤ S32x80.size a
  hwx0_0 : ∀ i : grid0.Coords, EltTy.bits .f32 = 32 ∨ (Rect.block (s := S32x80) S32x80.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x80.size a ≤ S32x80.size a
  hwx0_1 : ∀ i : grid0.Coords, EltTy.bits .f32 = 32 ∨ (Rect.block (s := S32x80) S32x80.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x80.size a ≤ S32x80.size a
  hwx0_2 : ∀ i : grid0.Coords, EltTy.bits .f32 = 32 ∨ (Rect.block (s := S32x80) S32x80.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x80.size a ≤ S32x80.size a
  hwx0_3 : ∀ i : grid0.Coords, EltTy.bits .f32 = 32 ∨ (Rect.block (s := S32x80) S32x80.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x4.size a ≤ S32x4.size a
  hwx0_4 : ∀ i : grid0.Coords, EltTy.bits .f32 = 32 ∨ (Rect.block (s := S32x4) S32x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x81.size a ≤ S32x81.size a
  hwx0_5 : ∀ i : grid0.Coords, EltTy.bits .f32 = 32 ∨ (Rect.block (s := S32x81) S32x81.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S80x32.size a ≤ S80x32.size a
  hwx0_6 : ∀ i : grid0.Coords, EltTy.bits .f32 = 32 ∨ (Rect.block (s := S80x32) S80x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S80x32x85.size a ≤ S80x32x85.size a
  hwx0_7 : ∀ i : grid0.Coords, EltTy.bits .f32 = 32 ∨ (Rect.block (s := S80x32x85) S80x32x85.size (cc0_transform_7 i) (hinb0_7 i)).WholeWords (EltTy.packing .f32)

variable [Facts₀]

abbrev win0_0 : Pipeline.Window sig grid0 :=
  Pipeline.Window.ofSpec (Memref.whole main_v6) S32x80.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v8) S32x80.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S32x80.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S32x80.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S32x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S32x81.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S80x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S80x32x85.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1x32x320 : Shape := ⟨3, ![1, 32, 320]⟩
abbrev S1x32x81 : Shape := ⟨3, ![1, 32, 81]⟩
abbrev S1x32x4 : Shape := ⟨3, ![1, 32, 4]⟩
abbrev S1x600x1000x3 : Shape := ⟨4, ![1, 600, 1000, 3]⟩
abbrev S80x1x32 : Shape := ⟨3, ![80, 1, 32]⟩
abbrev S4 : Shape := ⟨1, ![4]⟩
abbrev S32x320 : Shape := ⟨2, ![32, 320]⟩
abbrev S32x80x4 : Shape := ⟨3, ![32, 80, 4]⟩
abbrev S1x1x4 : Shape := ⟨3, ![1, 1, 4]⟩
abbrev S1x32x1 : Shape := ⟨3, ![1, 32, 1]⟩
abbrev S32 : Shape := ⟨1, ![32]⟩
abbrev S_ : Shape := ⟨0, ![]⟩
abbrev S32x80x1 : Shape := ⟨3, ![32, 80, 1]⟩
abbrev S32x80 : Shape := ⟨2, ![32, 80]⟩
abbrev S32x1 : Shape := ⟨2, ![32, 1]⟩
abbrev S80x32x4 : Shape := ⟨3, ![80, 32, 4]⟩
abbrev S80x1x32x4 : Shape := ⟨4, ![80, 1, 32, 4]⟩
abbrev S1x1x32x81 : Shape := ⟨4, ![1, 1, 32, 81]⟩
abbrev S80x1x32x81 : Shape := ⟨4, ![80, 1, 32, 81]⟩
abbrev S80x1x32x85 : Shape := ⟨4, ![80, 1, 32, 85]⟩
abbrev S80x1x32x1 : Shape := ⟨4, ![80, 1, 32, 1]⟩

abbrev nBuf : Space → Nat
  | .hbm => 95
  | .vmem => 0
  | .smem => 0
  | _ => 0

abbrev bufTy : (tb : Table) → Fin (tcTables nBuf tb) → BufTy
  | .hbm, ⟨0, _⟩ => ⟨S1x32x320, .f32⟩
  | .hbm, ⟨1, _⟩ => ⟨S1x32x81, .f32⟩
  | .hbm, ⟨2, _⟩ => ⟨S1x32x4, .f32⟩
  | .hbm, ⟨3, _⟩ => ⟨S1x600x1000x3, .f32⟩
  | .hbm, ⟨4, _⟩ => ⟨S80x1x32, .i32⟩
  | .hbm, ⟨5, _⟩ => ⟨S4, .f32⟩
  | .hbm, ⟨6, _⟩ => ⟨S32x320, .f32⟩
  | .hbm, ⟨7, _⟩ => ⟨S32x80x4, .f32⟩
  | .hbm, ⟨8, _⟩ => ⟨S1x1x4, .f32⟩
  | .hbm, ⟨9, _⟩ => ⟨S32x80x4, .f32⟩
  | .hbm, ⟨10, _⟩ => ⟨S32x80x4, .f32⟩
  | .hbm, ⟨11, _⟩ => ⟨S1x32x1, .f32⟩
  | .hbm, ⟨12, _⟩ => ⟨S32, .f32⟩
  | .hbm, ⟨13, _⟩ => ⟨S1x32x1, .f32⟩
  | .hbm, ⟨14, _⟩ => ⟨S32, .f32⟩
  | .hbm, ⟨15, _⟩ => ⟨S1x32x1, .f32⟩
  | .hbm, ⟨16, _⟩ => ⟨S32, .f32⟩
  | .hbm, ⟨17, _⟩ => ⟨S1x32x1, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S32, .f32⟩
  | .hbm, ⟨27, _⟩ => ⟨S32x80x1, .f32⟩
  | .hbm, ⟨28, _⟩ => ⟨S32x80, .f32⟩
  | .hbm, ⟨29, _⟩ => ⟨S32x1, .f32⟩
  | .hbm, ⟨30, _⟩ => ⟨S32x80, .f32⟩
  | .hbm, ⟨31, _⟩ => ⟨S32x80, .f32⟩
  | .hbm, ⟨32, _⟩ => ⟨S32x1, .f32⟩
  | .hbm, ⟨33, _⟩ => ⟨S32x80, .f32⟩
  | .hbm, ⟨34, _⟩ => ⟨S32x80, .f32⟩
  | .hbm, ⟨35, _⟩ => ⟨S32x80x1, .f32⟩
  | .hbm, ⟨36, _⟩ => ⟨S32x80, .f32⟩
  | .hbm, ⟨37, _⟩ => ⟨S32x1, .f32⟩
  | .hbm, ⟨38, _⟩ => ⟨S32x80, .f32⟩
  | .hbm, ⟨39, _⟩ => ⟨S32x80, .f32⟩
  | .hbm, ⟨40, _⟩ => ⟨S32x1, .f32⟩
  | .hbm, ⟨41, _⟩ => ⟨S32x80, .f32⟩
  | .hbm, ⟨42, _⟩ => ⟨S32x80, .f32⟩
  | .hbm, ⟨43, _⟩ => ⟨S32x80x1, .f32⟩
  | .hbm, ⟨44, _⟩ => ⟨S32x80, .f32⟩
  | .hbm, ⟨45, _⟩ => ⟨S32x80, .f32⟩
  | .hbm, ⟨46, _⟩ => ⟨S32x1, .f32⟩
  | .hbm, ⟨47, _⟩ => ⟨S32x80, .f32⟩
  | .hbm, ⟨48, _⟩ => ⟨S32x80, .f32⟩
  | .hbm, ⟨49, _⟩ => ⟨S32x80x1, .f32⟩
  | .hbm, ⟨50, _⟩ => ⟨S32x80, .f32⟩
  | .hbm, ⟨51, _⟩ => ⟨S32x80, .f32⟩
  | .hbm, ⟨52, _⟩ => ⟨S32x1, .f32⟩
  | .hbm, ⟨53, _⟩ => ⟨S32x80, .f32⟩
  | .hbm, ⟨54, _⟩ => ⟨S32x80, .f32⟩
  | .hbm, ⟨55, _⟩ => ⟨S_, .f32⟩
  | .hbm, ⟨56, _⟩ => ⟨S32x80, .f32⟩
  | .hbm, ⟨57, _⟩ => ⟨S32x80, .f32⟩
  | .hbm, ⟨58, _⟩ => ⟨S32x80, .f32⟩
  | .hbm, ⟨59, _⟩ => ⟨S32x80, .f32⟩
  | .hbm, ⟨60, _⟩ => ⟨S_, .f32⟩
  | .hbm, ⟨61, _⟩ => ⟨S32x80, .f32⟩
  | .hbm, ⟨62, _⟩ => ⟨S32x80, .f32⟩
  | .hbm, ⟨63, _⟩ => ⟨S32x80, .f32⟩
  | .hbm, ⟨64, _⟩ => ⟨S32x80, .f32⟩
  | .hbm, ⟨65, _⟩ => ⟨S32x80, .f32⟩
  | .hbm, ⟨66, _⟩ => ⟨S32x80, .f32⟩
  | .hbm, ⟨67, _⟩ => ⟨S_, .f32⟩
  | .hbm, ⟨68, _⟩ => ⟨S32x80, .f32⟩
  | .hbm, ⟨69, _⟩ => ⟨S32x80, .f32⟩
  | .hbm, ⟨70, _⟩ => ⟨S_, .f32⟩
  | .hbm, ⟨71, _⟩ => ⟨S32x80, .f32⟩
  | .hbm, ⟨72, _⟩ => ⟨S32x80, .f32⟩
  | .hbm, ⟨73, _⟩ => ⟨S32x80, .f32⟩
  | .hbm, ⟨74, _⟩ => ⟨S_, .f32⟩
  | .hbm, ⟨75, _⟩ => ⟨S32x80, .f32⟩
  | .hbm, ⟨76, _⟩ => ⟨S32x80, .f32⟩
  | .hbm, ⟨77, _⟩ => ⟨S32x80, .f32⟩
  | .hbm, ⟨78, _⟩ => ⟨S_, .f32⟩
  | .hbm, ⟨79, _⟩ => ⟨S32x80, .f32⟩
  | .hbm, ⟨80, _⟩ => ⟨S32x80, .f32⟩
  | .hbm, ⟨81, _⟩ => ⟨S32x80x1, .f32⟩
  | .hbm, ⟨82, _⟩ => ⟨S32x80x1, .f32⟩
  | .hbm, ⟨83, _⟩ => ⟨S32x80x1, .f32⟩
  | .hbm, ⟨84, _⟩ => ⟨S32x80x1, .f32⟩
  | .hbm, ⟨85, _⟩ => ⟨S32x80x4, .f32⟩
  | .hbm, ⟨86, _⟩ => ⟨S80x32x4, .f32⟩
  | .hbm, ⟨87, _⟩ => ⟨S80x1x32x4, .f32⟩
  | .hbm, ⟨88, _⟩ => ⟨S1x1x32x81, .f32⟩
  | .hbm, ⟨89, _⟩ => ⟨S80x1x32x81, .f32⟩
  | .hbm, ⟨90, _⟩ => ⟨S80x1x32x85, .f32⟩
  | .hbm, ⟨91, _⟩ => ⟨S80x1x32x1, .i32⟩
  | .hbm, ⟨92, _⟩ => ⟨S80x1x32x1, .f32⟩
  | .hbm, ⟨93, _⟩ => ⟨S80x1x32x85, .f32⟩
  | .hbm, ⟨94, _⟩ => ⟨S80x1x32x85, .f32⟩
  | _, _ => ⟨S1x32x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_2 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_3 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_4 : Ref sig .tc := ⟨.hbm, 67, rfl⟩
abbrev main_v57 : Ref sig .tc := ⟨.hbm, 68, rfl⟩
abbrev main_v58 : Ref sig .tc := ⟨.hbm, 69, rfl⟩
abbrev main_cst_5 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_6 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_7 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩

abbrev nD : Nat := 1
abbrev τ : Topo := Topo.v7x

variable {F : FTy → Type} [FloatOps F]

class Facts₀ : Prop where
  shapeCasts_S1x32x320_S32x320 : S1x32x320.ShapeCasts S32x320
  shapeCasts_S32x320_S32x80x4 : S32x320.ShapeCasts S32x80x4
  bcast_S4_S1x1x4_2 : S4.BroadcastsInDim S1x1x4 (![2] : Fin 1 → Fin S1x1x4.rank)
  bcast_S1x1x4_S32x80x4_0_1_2 : S1x1x4.BroadcastsInDim S32x80x4 (![0, 1, 2] : Fin 3 → Fin S32x80x4.rank)
  slices_S1x32x4_S1x32x1_0_0_0 : S1x32x4.Slices ![0, 0, 0] S1x32x1
  shapeCasts_S1x32x1_S32 : S1x32x1.ShapeCasts S32
  slices_S1x32x4_S1x32x1_0_0_1 : S1x32x4.Slices ![0, 0, 1] S1x32x1
  slices_S1x32x4_S1x32x1_0_0_2 : S1x32x4.Slices ![0, 0, 2] S1x32x1
  slices_S1x32x4_S1x32x1_0_0_3 : S1x32x4.Slices ![0, 0, 3] S1x32x1
  bcast_S_S32 : S_.BroadcastsInDim S32 (![] : Fin 0 → Fin S32.rank)
  slices_S32x80x4_S32x80x1_0_0_0 : S32x80x4.Slices ![0, 0, 0] S32x80x1
  shapeCasts_S32x80x1_S32x80 : S32x80x1.ShapeCasts S32x80
  bcast_S32_S32x1_0 : S32.BroadcastsInDim S32x1 (![0] : Fin 1 → Fin S32x1.rank)
  bcast_S32x1_S32x80_0_1 : S32x1.BroadcastsInDim S32x80 (![0, 1] : Fin 2 → Fin S32x80.rank)
  slices_S32x80x4_S32x80x1_0_0_1 : S32x80x4.Slices ![0, 0, 1] S32x80x1
  slices_S32x80x4_S32x80x1_0_0_2 : S32x80x4.Slices ![0, 0, 2] S32x80x1
  slices_S32x80x4_S32x80x1_0_0_3 : S32x80x4.Slices ![0, 0, 3] S32x80x1
  bcast_S_S32x80 : S_.BroadcastsInDim S32x80 (![] : Fin 0 → Fin S32x80.rank)
  bcast_S32x80_S32x80x1_0_1 : S32x80.BroadcastsInDim S32x80x1 (![0, 1] : Fin 2 → Fin S32x80x1.rank)
  concatenates_S32x80x1_S32x80x1_S32x80x1_S32x80x1_S32x80x4_d2 : Shape.Concatenates [S32x80x1, S32x80x1, S32x80x1, S32x80x1] S32x80x4 2
  transposes_S32x80x4_S80x32x4_1_0_2 : S32x80x4.Transposes [1, 0, 2] S80x32x4
  bcast_S80x32x4_S80x1x32x4_0_2_3 : S80x32x4.BroadcastsInDim S80x1x32x4 (![0, 2, 3] : Fin 3 → Fin S80x1x32x4.rank)
  bcast_S1x32x81_S1x1x32x81_1_2_3 : S1x32x81.BroadcastsInDim S1x1x32x81 (![1, 2, 3] : Fin 3 → Fin S1x1x32x81.rank)
  bcast_S1x1x32x81_S80x1x32x81_0_1_2_3 : S1x1x32x81.BroadcastsInDim S80x1x32x81 (![0, 1, 2, 3] : Fin 4 → Fin S80x1x32x81.rank)
  concatenates_S80x1x32x81_S80x1x32x4_S80x1x32x85_d3 : Shape.Concatenates [S80x1x32x81, S80x1x32x4] S80x1x32x85 3
  bcast_S80x1x32_S80x1x32x1_0_1_2 : S80x1x32.BroadcastsInDim S80x1x32x1 (![0, 1, 2] : Fin 3 → Fin S80x1x32x1.rank)
  bcast_S80x1x32x1_S80x1x32x85_0_1_2_3 : S80x1x32x1.BroadcastsInDim S80x1x32x85 (![0, 1, 2, 3] : Fin 4 → Fin S80x1x32x85.rank)

variable [Facts₀]

class Facts : Prop extends Facts₀ where

variable [Facts]
-- ==== Proof.KBody.lean ====
/-
  What the kernel body leaves in its output block, as five slabs.

  The body reads the box block's four columns (x, y, w, h), the four blocks of standardized regression targets, the
  class scores and the mask, and fills the [80, 32, 85] output block by five stores that tile it along the last axis:
  lanes 0–80 (the class scores times the mask), then lanes 81, 82, 83 and 84 (the four box numbers times the mask).
  Here that block is written as the canonical contents of those five stores, each payload a pure function of the
  input blocks; nothing is computed yet.
-/
import proofs.«102958_j43843026157745_1_alg».proof.Proof.Gen.KernelIdeal.Frame
import Idealize.ShloMosaic.Lib.Pipeline.Value

set_option maxRecDepth 16384

noncomputable section

namespace Cert.KernelIdeal.Body

open Idealize.ShloMosaic Idealize.ShloMosaic.TcCoe Idealize.ShloMosaic.Tactic Idealize.SL.Sem
open Cert.KernelIdeal Cert.KernelIdeal.Gen

variable {F : FTy → Type} [FloatOps F] [Named F]

theorem hz2 : (![0, 0] : Fin 2 → Nat) = fun _ => 0 := funext fun a => by fin_cases a <;> rfl

/-- The box block's four columns: position x, y and extent w, h of every region. -/
def boxX (x4 : Vec F S32x4 .f32) : Vec F S32x1 .f32 := View.ld x4 (Rect.unit ![0, 0] S32x1.size Facts₀.inb_S32x4_S32x1_0_0)
def boxY (x4 : Vec F S32x4 .f32) : Vec F S32x1 .f32 := View.ld x4 (Rect.unit ![0, 1] S32x1.size Facts₀.inb_S32x4_S32x1_0_1)
def boxW (x4 : Vec F S32x4 .f32) : Vec F S32x1 .f32 := View.ld x4 (Rect.unit ![0, 2] S32x1.size Facts₀.inb_S32x4_S32x1_0_2)
def boxH (x4 : Vec F S32x4 .f32) : Vec F S32x1 .f32 := View.ld x4 (Rect.unit ![0, 3] S32x1.size Facts₀.inb_S32x4_S32x1_0_3)

/-- The decoded centre along y, the decoded sizes, and the rounded low corner along x, each over [32, 80]. -/
def ctrY (x4 : Vec F S32x4 .f32) (x1 : Vec F S32x80 .f32) : FVec F S32x80 .f32 := k0_pay4 (boxY x4) (boxH x4) x1
def sizeW (x4 : Vec F S32x4 .f32) (x2 : Vec F S32x80 .f32) : FVec F S32x80 .f32 := k0_pay5 (boxW x4) x2
def sizeH (x4 : Vec F S32x4 .f32) (x3 : Vec F S32x80 .f32) : FVec F S32x80 .f32 := k0_pay6 (boxH x4) x3
def cornerX (x4 : Vec F S32x4 .f32) (x0 x2 : Vec F S32x80 .f32) : FVec F S32x80 .f32 := k0_pay7 (boxX x4) (boxW x4) x0 x2

/-- The five stores, last first. -/
def pieces (x0 x1 x2 x3 : Vec F S32x80 .f32) (x4 : Vec F S32x4 .f32) (x5 : Vec F S32x81 .f32) (x6 : Vec F S80x32 .f32) :
    List (View.Piece (Elt F) S80x32x85 .f32) :=
  [⟨Rect.unit ![0, 0, 84] ![80, 32, 1] Facts₀.inb_S80x32x85_S80x32x1_0_0_84,
      k0_pay1 (k0_pay9 (ctrY x4 x1) (sizeH x4 x3)) (k0_pay10 x6)⟩,
    ⟨Rect.unit ![0, 0, 83] ![80, 32, 1] Facts₀.inb_S80x32x85_S80x32x1_0_0_83, k0_pay14 (sizeW x4 x2) (cornerX x4 x0 x2) x6⟩,
    ⟨Rect.unit ![0, 0, 82] ![80, 32, 1] Facts₀.inb_S80x32x85_S80x32x1_0_0_82, k0_pay13 (ctrY x4 x1) (sizeH x4 x3) x6⟩,
    ⟨Rect.unit ![0, 0, 81] ![80, 32, 1] Facts₀.inb_S80x32x85_S80x32x1_0_0_81, k0_pay12 (cornerX x4 x0 x2) x6⟩,
    ⟨Rect.unit ![0, 0, 0] ![80, 32, 81] Facts₀.inb_S80x32x85_S80x32x81_0_0_0, k0_pay11 x6 x5⟩]

/-- The output block after the body is the canonical contents of the five stores over the input blocks. -/
theorem out_pieces (c : Dev nD) (i : grid0.Coords) (arg1 : Memref sig .tc .vmem S32x80 .f32) (harg1 : arg1.IsWhole) (arg2 : Memref sig .tc .vmem S32x80 .f32) (harg2 : arg2.IsWhole) (arg3 : Memref sig .tc .vmem S32x80 .f32) (harg3 : arg3.IsWhole) (arg4 : Memref sig .tc .vmem S32x80 .f32) (harg4 : arg4.IsWhole) (arg5 : Memref sig .tc .vmem S32x4 .f32) (harg5 : arg5.IsWhole) (arg6 : Memref sig .tc .vmem S32x81 .f32) (harg6 : arg6.IsWhole) (arg7 : Memref sig .tc .vmem S80x32 .f32) (harg7 : arg7.IsWhole) (arg8 : Memref sig .tc .vmem S80x32x85 .f32) (harg8 : arg8.IsWhole)
    (x0 : Vec F S32x80 .f32) (x1 : Vec F S32x80 .f32) (x2 : Vec F S32x80 .f32) (x3 : Vec F S32x80 .f32) (x4 : Vec F S32x4 .f32) (x5 : Vec F S32x81 .f32) (x6 : Vec F S80x32 .f32) :
    out0_A_7 c i arg1 harg1 arg2 harg2 arg3 harg3 arg4 harg4 arg5 harg5 arg6 harg6 arg7 harg7 arg8 harg8 x0 x1 x2 x3 x4 x5 x6 = View.canon (pieces x0 x1 x2 x3 x4 x5 x6) := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5 x6)]
  unfold kernelRun0_A
  dsimp only
  sl_unfold_words
  simp only [View.readAt_eq_ld, harg1.read_unread, harg2.read_unread, harg3.read_unread, harg4.read_unread,
    harg5.read_unread, harg6.read_unread, harg7.read_unread, View.ld_unit_zero (S := S32x80) hz2,
    View.ld_unit_zero (S := S80x32) hz2, View.ld_unit_zero (S := S32x81) hz2]
  rfl

end Cert.KernelIdeal.Body

end
-- ==== Proof.KArray.lean ====
/-
  From the one block to the array, and the program's result.

  The grid has a single point and every window's block is its whole array at block index zero, so each input block is
  the array the region finds, the output block the body leaves is written back whole, and the result array after the
  run is that block. The program's result is this [80, 32, 85] array with a unit axis inserted in second place by the
  one host operation after the region.
-/
import proofs.«102958_j43843026157745_1_alg».proof.Proof.KBody
import Idealize.ShloMosaic.Lib.Pipeline.Value
import Idealize.ShloMosaic.Lib.StableHlo.Run

set_option maxRecDepth 16384

noncomputable section

namespace Cert.KernelIdeal.Arr

open Idealize.ShloMosaic Idealize.ShloMosaic.TcCoe Idealize.SL.Sem
open Cert.KernelIdeal Cert.KernelIdeal.Gen Cert.KernelIdeal.Body

variable (m : (ℓ : Loc nD τ sig) → Buf (Elt Ideal) ℓ) (ρ : Dev nD → PrngReg)

/-- The output block over the arrays the region finds. -/
def blockOut (c : Dev nD) : Vec Ideal S80x32x85 .f32 :=
  View.canon (pieces (V m c main_v6) (V m c main_v8) (V m c main_v10) (V m c main_v12) (V m c main_v13)
    (V m c main_v14) (V m c main_v16))

/-- Every window's block index is zero on every axis, at the grid's one point. -/
theorem idx_zero : ∀ t : Fin cfg0.N, win0_0.index t (0 : Fin 2) = 0
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 3) = 0
    ∧ win0_7.index t (1 : Fin 3) = 0
    ∧ win0_7.index t (2 : Fin 3) = 0 :=
  (by decide +kernel : ∀ t : Fin grid0.N, _)

/-- Input window 0's one block is its whole array. -/
theorem iblk0 (c : Dev nD) (t : Fin cfg0.N) : iblk m c 0 t = V m c main_v6 := by
  obtain ⟨e00, e01, e10, e11, e20, e21, e30, e31, e40, e41, e50, e51, e60, e61, e70, e71, e72⟩ := idx_zero t
  unfold iblk
  funext j
  show V m c main_v6 (((cfg0.win 0).blk t).view.emb j) = V m c main_v6 j
  have h : ((cfg0.win 0).blk t).view.emb j = j := by
    funext a; apply Fin.ext
    match a with
    | ⟨0, _⟩ => show win0_0.index t (0 : Fin 2) * 32 + 1 * (j 0).val = (j 0).val; omega
    | ⟨1, _⟩ => show win0_0.index t (1 : Fin 2) * 80 + 1 * (j 1).val = (j 1).val; omega
  rw [h]

/-- Input window 1's one block is its whole array. -/
theorem iblk1 (c : Dev nD) (t : Fin cfg0.N) : iblk m c 1 t = V m c main_v8 := by
  obtain ⟨e00, e01, e10, e11, e20, e21, e30, e31, e40, e41, e50, e51, e60, e61, e70, e71, e72⟩ := idx_zero t
  unfold iblk
  funext j
  show V m c main_v8 (((cfg0.win 1).blk t).view.emb j) = V m c main_v8 j
  have h : ((cfg0.win 1).blk t).view.emb j = j := by
    funext a; apply Fin.ext
    match a with
    | ⟨0, _⟩ => show win0_1.index t (0 : Fin 2) * 32 + 1 * (j 0).val = (j 0).val; omega
    | ⟨1, _⟩ => show win0_1.index t (1 : Fin 2) * 80 + 1 * (j 1).val = (j 1).val; omega
  rw [h]

/-- Input window 2's one block is its whole array. -/
theorem iblk2 (c : Dev nD) (t : Fin cfg0.N) : iblk m c 2 t = V m c main_v10 := by
  obtain ⟨e00, e01, e10, e11, e20, e21, e30, e31, e40, e41, e50, e51, e60, e61, e70, e71, e72⟩ := idx_zero t
  unfold iblk
  funext j
  show V m c main_v10 (((cfg0.win 2).blk t).view.emb j) = V m c main_v10 j
  have h : ((cfg0.win 2).blk t).view.emb j = j := by
    funext a; apply Fin.ext
    match a with
    | ⟨0, _⟩ => show win0_2.index t (0 : Fin 2) * 32 + 1 * (j 0).val = (j 0).val; omega
    | ⟨1, _⟩ => show win0_2.index t (1 : Fin 2) * 80 + 1 * (j 1).val = (j 1).val; omega
  rw [h]

/-- Input window 3's one block is its whole array. -/
theorem iblk3 (c : Dev nD) (t : Fin cfg0.N) : iblk m c 3 t = V m c main_v12 := by
  obtain ⟨e00, e01, e10, e11, e20, e21, e30, e31, e40, e41, e50, e51, e60, e61, e70, e71, e72⟩ := idx_zero t
  unfold iblk
  funext j
  show V m c main_v12 (((cfg0.win 3).blk t).view.emb j) = V m c main_v12 j
  have h : ((cfg0.win 3).blk t).view.emb j = j := by
    funext a; apply Fin.ext
    match a with
    | ⟨0, _⟩ => show win0_3.index t (0 : Fin 2) * 32 + 1 * (j 0).val = (j 0).val; omega
    | ⟨1, _⟩ => show win0_3.index t (1 : Fin 2) * 80 + 1 * (j 1).val = (j 1).val; omega
  rw [h]

/-- Input window 4's one block is its whole array. -/
theorem iblk4 (c : Dev nD) (t : Fin cfg0.N) : iblk m c 4 t = V m c main_v13 := by
  obtain ⟨e00, e01, e10, e11, e20, e21, e30, e31, e40, e41, e50, e51, e60, e61, e70, e71, e72⟩ := idx_zero t
  unfold iblk
  funext j
  show V m c main_v13 (((cfg0.win 4).blk t).view.emb j) = V m c main_v13 j
  have h : ((cfg0.win 4).blk t).view.emb j = j := by
    funext a; apply Fin.ext
    match a with
    | ⟨0, _⟩ => show win0_4.index t (0 : Fin 2) * 32 + 1 * (j 0).val = (j 0).val; omega
    | ⟨1, _⟩ => show win0_4.index t (1 : Fin 2) * 4 + 1 * (j 1).val = (j 1).val; omega
  rw [h]

/-- Input window 5's one block is its whole array. -/
theorem iblk5 (c : Dev nD) (t : Fin cfg0.N) : iblk m c 5 t = V m c main_v14 := by
  obtain ⟨e00, e01, e10, e11, e20, e21, e30, e31, e40, e41, e50, e51, e60, e61, e70, e71, e72⟩ := idx_zero t
  unfold iblk
  funext j
  show V m c main_v14 (((cfg0.win 5).blk t).view.emb j) = V m c main_v14 j
  have h : ((cfg0.win 5).blk t).view.emb j = j := by
    funext a; apply Fin.ext
    match a with
    | ⟨0, _⟩ => show win0_5.index t (0 : Fin 2) * 32 + 1 * (j 0).val = (j 0).val; omega
    | ⟨1, _⟩ => show win0_5.index t (1 : Fin 2) * 81 + 1 * (j 1).val = (j 1).val; omega
  rw [h]

/-- Input window 6's one block is its whole array. -/
theorem iblk6 (c : Dev nD) (t : Fin cfg0.N) : iblk m c 6 t = V m c main_v16 := by
  obtain ⟨e00, e01, e10, e11, e20, e21, e30, e31, e40, e41, e50, e51, e60, e61, e70, e71, e72⟩ := idx_zero t
  unfold iblk
  funext j
  show V m c main_v16 (((cfg0.win 6).blk t).view.emb j) = V m c main_v16 j
  have h : ((cfg0.win 6).blk t).view.emb j = j := by
    funext a; apply Fin.ext
    match a with
    | ⟨0, _⟩ => show win0_6.index t (0 : Fin 2) * 80 + 1 * (j 0).val = (j 0).val; omega
    | ⟨1, _⟩ => show win0_6.index t (1 : Fin 2) * 32 + 1 * (j 1).val = (j 1).val; omega
  rw [h]

/-- What the one point writes back is the output block, read through the whole-array block. -/
theorem flushed7_eq (c : Dev nD) (t : Fin cfg0.N) :
    (dats m 0 c).flushed 7 t = ((cfg0.win 7).blk t).view.read (Elt Ideal) (blockOut m c) := by
  show (cfg0.win 7).cut (grid0.coords t) ((dats m 0 c).after 7 t) = _
  rw [after0_7]
  unfold outsAt0
  have hp := out_pieces (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t)
  rw [hp, iblk0 m c t, iblk1 m c t, iblk2 m c t, iblk3 m c t, iblk4 m c t, iblk5 m c t, iblk6 m c t]
  obtain ⟨e00, e01, e10, e11, e20, e21, e30, e31, e40, e41, e50, e51, e60, e61, e70, e71, e72⟩ := idx_zero t
  funext j
  show blockOut m c j = blockOut m c (((cfg0.win 7).blk t).view.emb j)
  have h : ((cfg0.win 7).blk t).view.emb j = j := by
    funext a; apply Fin.ext
    match a with
    | ⟨0, _⟩ => show win0_7.index t (0 : Fin 3) * 80 + 1 * (j 0).val = (j 0).val; omega
    | ⟨1, _⟩ => show win0_7.index t (1 : Fin 3) * 32 + 1 * (j 1).val = (j 1).val; omega
    | ⟨2, _⟩ => show win0_7.index t (2 : Fin 3) * 85 + 1 * (j 2).val = (j 2).val; omega
  rw [h]

/-- An index is in the point's output block iff each coordinate is in the block's range on its axis. -/
theorem mem_blk7 (t : Fin cfg0.N) (i : S80x32x85.Idx) :
    i ∈ ((cfg0.win 7).blk t).view.set ↔ ∀ a : Fin 3, win0_7.index t a * S80x32x85.size a ≤ (i a).val
      ∧ (i a).val < win0_7.index t a * S80x32x85.size a + S80x32x85.size a := by
  show i ∈ ((View.whole main_v17).slice (win0_7.rect t)).set ↔ _
  rw [View.set_slice_whole, Rect.mem_set_unit]
  exact Iff.rfl

/-- The one block covers the array. -/
theorem cover7 (i : S80x32x85.Idx) :
    ∃ t : Fin cfg0.N, (cfg0.win 7).flush t = true ∧ i ∈ ((cfg0.win 7).blk t).view.set := by
  refine ⟨t0_0, flush0_7 t0_0, ?_⟩
  rw [mem_blk7]
  obtain ⟨e00, e01, e10, e11, e20, e21, e30, e31, e40, e41, e50, e51, e60, e61, e70, e71, e72⟩ := idx_zero t0_0
  have h0 : (i 0).val < 80 := (i 0).isLt
  have h1 : (i 1).val < 32 := (i 1).isLt
  have h2 : (i 2).val < 85 := (i 2).isLt
  intro a
  match a with
  | ⟨0, _⟩ => show win0_7.index t0_0 (0 : Fin 3) * 80 ≤ (i 0).val ∧ (i 0).val < win0_7.index t0_0 (0 : Fin 3) * 80 + 80; omega
  | ⟨1, _⟩ => show win0_7.index t0_0 (1 : Fin 3) * 32 ≤ (i 1).val ∧ (i 1).val < win0_7.index t0_0 (1 : Fin 3) * 32 + 32; omega
  | ⟨2, _⟩ => show win0_7.index t0_0 (2 : Fin 3) * 85 ≤ (i 2).val ∧ (i 2).val < win0_7.index t0_0 (2 : Fin 3) * 85 + 85; omega

/-- The result array after the run is the output block. -/
theorem final7 (c : Dev nD) : (dats m 0 c).arrAt 7 cfg0.N = blockOut m c :=
  (dats m 0 c).arrAt_eq_of_cover 7 (blockOut m c) (fun t _ => flushed7_eq m c t) cover7

/-- The program's result: the output block with a unit axis inserted in second place. -/
def result (c : Dev nD) : FVec Ideal S80x1x32x85 .f32 :=
  broadcastInDim S80x1x32x85 ![0, 2, 3] Facts₀.bcast_S80x32x85_S80x1x32x85_0_2_3 (blockOut m c)

/-- The host operation after the region reads the result array. -/
theorem tail_eq (c : Dev nD) :
    Pipeline.afterTail₀ cfgs (dats m) 0 (V0 m) [hostOps1] c main_v18 = result m c := by
  unfold Pipeline.afterTail₀
  show StableHlo.after hostOps1 _ (Proc.devRef .tc main_v18) = _
  after_results
  exact congrArg _ ((Pipeline.withArrays_arr spec0 launch0.win.arr_inj c _ _ 7).trans (final7 m c))

/-- Every weakly fair execution of the program terminates with its result at `result` and its arguments unchanged. -/
theorem run : θ_run defs (onTc (τ := τ) (main (F := Ideal))) ⟨m, fun _ => 0, ρ⟩ fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v18 (Pipeline.mem_restRefs_of main_v18 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Arr

end
-- ==== Proof.RefRun.lean ====
/-
  The reference program's entry function as a straight line of its 90 host operations, in the order the
  program runs them, and what running it leaves in memory.

  The entry function is two consecutive windows of statements; four of the statements are calls of the
  rounding function, whose body is a single operation (round to the nearest integer, ties to even) from the
  call's operand into the call's own result buffer. With the two windows and the four bodies unfolded and
  sequencing reassociated, the function IS the straight line `seq ops`. No buffer and no semaphore of the
  signature is scoped, and every operation touches TensorCore buffers only, so every weakly fair execution
  terminates with each buffer holding the fold of the operations' pure functions over the launch contents.
-/
import proofs.«102958_j43843026157745_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 90 operations, in order; the four roundings stand where the calls stood, each from the call's operand
    into the call's result. -/
abbrev ops : List (HloOp τ sig (Elt F)) :=
  [ StableHlo.nullary main_cst (fun i => FloatOps.ofBits .f32 (lit0 (S4.rowMajor i))),
    StableHlo.reshape main_arg0 main_v0 rfl shapeCasts_S1x32x320_S32x320,
    StableHlo.reshape main_v0 main_v1 rfl shapeCasts_S32x320_S32x80x4,
    StableHlo.unary main_cst main_v2 (broadcastInDim S1x1x4 ![2] bcast_S4_S1x1x4_2 : (⟨S4, .f32⟩ : BufTy).Contents (Elt F) → (⟨S1x1x4, .f32⟩ : BufTy).Contents (Elt F)),
    StableHlo.unary main_v2 main_v3 (broadcastInDim S32x80x4 ![0, 1, 2] bcast_S1x1x4_S32x80x4_0_1_2 : (⟨S1x1x4, .f32⟩ : BufTy).Contents (Elt F) → (⟨S32x80x4, .f32⟩ : BufTy).Contents (Elt F)),
    StableHlo.binary main_v1 main_v3 main_v4 (Host.divf : (⟨S32x80x4, .f32⟩ : BufTy).Contents (Elt F) → (⟨S32x80x4, .f32⟩ : BufTy).Contents (Elt F) → (⟨S32x80x4, .f32⟩ : BufTy).Contents (Elt F)),
    StableHlo.unary main_arg2 main_v5 ((extractStridedSlice S1x32x1 ![0, 0, 0] · slices_S1x32x4_S1x32x1_0_0_0) : (⟨S1x32x4, .f32⟩ : BufTy).Contents (Elt F) → (⟨S1x32x1, .f32⟩ : BufTy).Contents (Elt F)),
    StableHlo.reshape main_v5 main_v6 rfl shapeCasts_S1x32x1_S32,
    StableHlo.unary main_arg2 main_v7 ((extractStridedSlice S1x32x1 ![0, 0, 1] · slices_S1x32x4_S1x32x1_0_0_1) : (⟨S1x32x4, .f32⟩ : BufTy).Contents (Elt F) → (⟨S1x32x1, .f32⟩ : BufTy).Contents (Elt F)),
    StableHlo.reshape main_v7 main_v8 rfl shapeCasts_S1x32x1_S32,
    StableHlo.unary main_arg2 main_v9 ((extractStridedSlice S1x32x1 ![0, 0, 2] · slices_S1x32x4_S1x32x1_0_0_2) : (⟨S1x32x4, .f32⟩ : BufTy).Contents (Elt F) → (⟨S1x32x1, .f32⟩ : BufTy).Contents (Elt F)),
    StableHlo.reshape main_v9 main_v10 rfl shapeCasts_S1x32x1_S32,
    StableHlo.unary main_arg2 main_v11 ((extractStridedSlice S1x32x1 ![0, 0, 3] · slices_S1x32x4_S1x32x1_0_0_3) : (⟨S1x32x4, .f32⟩ : BufTy).Contents (Elt F) → (⟨S1x32x1, .f32⟩ : BufTy).Contents (Elt F)),
    StableHlo.reshape main_v11 main_v12 rfl shapeCasts_S1x32x1_S32,
    StableHlo.nullary main_cst_0 (constant S_ .f32 0x3F000000#32),
    StableHlo.unary main_cst_0 main_v13 (broadcastInDim S32 ![] bcast_S_S32 : (⟨S_, .f32⟩ : BufTy).Contents (Elt F) → (⟨S32, .f32⟩ : BufTy).Contents (Elt F)),
    StableHlo.binary main_v10 main_v13 main_v14 (mulf : (⟨S32, .f32⟩ : BufTy).Contents (Elt F) → (⟨S32, .f32⟩ : BufTy).Contents (Elt F) → (⟨S32, .f32⟩ : BufTy).Contents (Elt F)),
    StableHlo.binary main_v6 main_v14 main_v15 (addf : (⟨S32, .f32⟩ : BufTy).Contents (Elt F) → (⟨S32, .f32⟩ : BufTy).Contents (Elt F) → (⟨S32, .f32⟩ : BufTy).Contents (Elt F)),
    StableHlo.nullary main_cst_1 (constant S_ .f32 0x3F000000#32),
    StableHlo.unary main_cst_1 main_v16 (broadcastInDim S32 ![] bcast_S_S32 : (⟨S_, .f32⟩ : BufTy).Contents (Elt F) → (⟨S32, .f32⟩ : BufTy).Contents (Elt F)),
    StableHlo.binary main_v12 main_v16 main_v17 (mulf : (⟨S32, .f32⟩ : BufTy).Contents (Elt F) → (⟨S32, .f32⟩ : BufTy).Contents (Elt F) → (⟨S32, .f32⟩ : BufTy).Contents (Elt F)),
    StableHlo.binary main_v8 main_v17 main_v18 (addf : (⟨S32, .f32⟩ : BufTy).Contents (Elt F) → (⟨S32, .f32⟩ : BufTy).Contents (Elt F) → (⟨S32, .f32⟩ : BufTy).Contents (Elt F)),
    StableHlo.unary main_v4 main_v19 ((extractStridedSlice S32x80x1 ![0, 0, 0] · slices_S32x80x4_S32x80x1_0_0_0) : (⟨S32x80x4, .f32⟩ : BufTy).Contents (Elt F) → (⟨S32x80x1, .f32⟩ : BufTy).Contents (Elt F)),
    StableHlo.reshape main_v19 main_v20 rfl shapeCasts_S32x80x1_S32x80,
    StableHlo.unary main_v10 main_v21 (broadcastInDim S32x1 ![0] bcast_S32_S32x1_0 : (⟨S32, .f32⟩ : BufTy).Contents (Elt F) → (⟨S32x1, .f32⟩ : BufTy).Contents (Elt F)),
    StableHlo.unary main_v21 main_v22 (broadcastInDim S32x80 ![0, 1] bcast_S32x1_S32x80_0_1 : (⟨S32x1, .f32⟩ : BufTy).Contents (Elt F) → (⟨S32x80, .f32⟩ : BufTy).Contents (Elt F)),
    StableHlo.binary main_v20 main_v22 main_v23 (mulf : (⟨S32x80, .f32⟩ : BufTy).Contents (Elt F) → (⟨S32x80, .f32⟩ : BufTy).Contents (Elt F) → (⟨S32x80, .f32⟩ : BufTy).Contents (Elt F)),
    StableHlo.unary main_v15 main_v24 (broadcastInDim S32x1 ![0] bcast_S32_S32x1_0 : (⟨S32, .f32⟩ : BufTy).Contents (Elt F) → (⟨S32x1, .f32⟩ : BufTy).Contents (Elt F)),
    StableHlo.unary main_v24 main_v25 (broadcastInDim S32x80 ![0, 1] bcast_S32x1_S32x80_0_1 : (⟨S32x1, .f32⟩ : BufTy).Contents (Elt F) → (⟨S32x80, .f32⟩ : BufTy).Contents (Elt F)),
    StableHlo.binary main_v23 main_v25 main_v26 (addf : (⟨S32x80, .f32⟩ : BufTy).Contents (Elt F) → (⟨S32x80, .f32⟩ : BufTy).Contents (Elt F) → (⟨S32x80, .f32⟩ : BufTy).Contents (Elt F)),
    StableHlo.unary main_v4 main_v27 ((extractStridedSlice S32x80x1 ![0, 0, 1] · slices_S32x80x4_S32x80x1_0_0_1) : (⟨S32x80x4, .f32⟩ : BufTy).Contents (Elt F) → (⟨S32x80x1, .f32⟩ : BufTy).Contents (Elt F)),
    StableHlo.reshape main_v27 main_v28 rfl shapeCasts_S32x80x1_S32x80,
    StableHlo.unary main_v12 main_v29 (broadcastInDim S32x1 ![0] bcast_S32_S32x1_0 : (⟨S32, .f32⟩ : BufTy).Contents (Elt F) → (⟨S32x1, .f32⟩ : BufTy).Contents (Elt F)),
    StableHlo.unary main_v29 main_v30 (broadcastInDim S32x80 ![0, 1] bcast_S32x1_S32x80_0_1 : (⟨S32x1, .f32⟩ : BufTy).Contents (Elt F) → (⟨S32x80, .f32⟩ : BufTy).Contents (Elt F)),
    StableHlo.binary main_v28 main_v30 main_v31 (mulf : (⟨S32x80, .f32⟩ : BufTy).Contents (Elt F) → (⟨S32x80, .f32⟩ : BufTy).Contents (Elt F) → (⟨S32x80, .f32⟩ : BufTy).Contents (Elt F)),
    StableHlo.unary main_v18 main_v32 (broadcastInDim S32x1 ![0] bcast_S32_S32x1_0 : (⟨S32, .f32⟩ : BufTy).Contents (Elt F) → (⟨S32x1, .f32⟩ : BufTy).Contents (Elt F)),
    StableHlo.unary main_v32 main_v33 (broadcastInDim S32x80 ![0, 1] bcast_S32x1_S32x80_0_1 : (⟨S32x1, .f32⟩ : BufTy).Contents (Elt F) → (⟨S32x80, .f32⟩ : BufTy).Contents (Elt F)),
    StableHlo.binary main_v31 main_v33 main_v34 (addf : (⟨S32x80, .f32⟩ : BufTy).Contents (Elt F) → (⟨S32x80, .f32⟩ : BufTy).Contents (Elt F) → (⟨S32x80, .f32⟩ : BufTy).Contents (Elt F)),
    StableHlo.unary main_v4 main_v35 ((extractStridedSlice S32x80x1 ![0, 0, 2] · slices_S32x80x4_S32x80x1_0_0_2) : (⟨S32x80x4, .f32⟩ : BufTy).Contents (Elt F) → (⟨S32x80x1, .f32⟩ : BufTy).Contents (Elt F)),
    StableHlo.reshape main_v35 main_v36 rfl shapeCasts_S32x80x1_S32x80,
    StableHlo.unary main_v36 main_v37 (Host.exp : (⟨S32x80, .f32⟩ : BufTy).Contents (Elt F) → (⟨S32x80, .f32⟩ : BufTy).Contents (Elt F)),
    StableHlo.unary main_v10 main_v38 (broadcastInDim S32x1 ![0] bcast_S32_S32x1_0 : (⟨S32, .f32⟩ : BufTy).Contents (Elt F) → (⟨S32x1, .f32⟩ : BufTy).Contents (Elt F)),
    StableHlo.unary main_v38 main_v39 (broadcastInDim S32x80 ![0, 1] bcast_S32x1_S32x80_0_1 : (⟨S32x1, .f32⟩ : BufTy).Contents (Elt F) → (⟨S32x80, .f32⟩ : BufTy).Contents (Elt F)),
    StableHlo.binary main_v37 main_v39 main_v40 (mulf : (⟨S32x80, .f32⟩ : BufTy).Contents (Elt F) → (⟨S32x80, .f32⟩ : BufTy).Contents (Elt F) → (⟨S32x80, .f32⟩ : BufTy).Contents (Elt F)),
    StableHlo.unary main_v4 main_v41 ((extractStridedSlice S32x80x1 ![0, 0, 3] · slices_S32x80x4_S32x80x1_0_0_3) : (⟨S32x80x4, .f32⟩ : BufTy).Contents (Elt F) → (⟨S32x80x1, .f32⟩ : BufTy).Contents (Elt F)),
    StableHlo.reshape main_v41 main_v42 rfl shapeCasts_S32x80x1_S32x80,
    StableHlo.unary main_v42 main_v43 (Host.exp : (⟨S32x80, .f32⟩ : BufTy).Contents (Elt F) → (⟨S32x80, .f32⟩ : BufTy).Contents (Elt F)),
    StableHlo.unary main_v12 main_v44 (broadcastInDim S32x1 ![0] bcast_S32_S32x1_0 : (⟨S32, .f32⟩ : BufTy).Contents (Elt F) → (⟨S32x1, .f32⟩ : BufTy).Contents (Elt F)),
    StableHlo.unary main_v44 main_v45 (broadcastInDim S32x80 ![0, 1] bcast_S32x1_S32x80_0_1 : (⟨S32x1, .f32⟩ : BufTy).Contents (Elt F) → (⟨S32x80, .f32⟩ : BufTy).Contents (Elt F)),
    StableHlo.binary main_v43 main_v45 main_v46 (mulf : (⟨S32x80, .f32⟩ : BufTy).Contents (Elt F) → (⟨S32x80, .f32⟩ : BufTy).Contents (Elt F) → (⟨S32x80, .f32⟩ : BufTy).Contents (Elt F)),
    StableHlo.nullary main_cst_2 (constant S_ .f32 0x3F000000#32),
    StableHlo.unary main_cst_2 main_v47 (broadcastInDim S32x80 ![] bcast_S_S32x80 : (⟨S_, .f32⟩ : BufTy).Contents (Elt F) → (⟨S32x80, .f32⟩ : BufTy).Contents (Elt F)),
    StableHlo.binary main_v40 main_v47 main_v48 (mulf : (⟨S32x80, .f32⟩ : BufTy).Contents (Elt F) → (⟨S32x80, .f32⟩ : BufTy).Contents (Elt F) → (⟨S32x80, .f32⟩ : BufTy).Contents (Elt F)),
    StableHlo.binary main_v26 main_v48 main_v49 (subf : (⟨S32x80, .f32⟩ : BufTy).Contents (Elt F) → (⟨S32x80, .f32⟩ : BufTy).Contents (Elt F) → (⟨S32x80, .f32⟩ : BufTy).Contents (Elt F)),
    StableHlo.TRef.unary (.of main_v49) main_call0.v0 Host.roundeven,
    StableHlo.nullary main_cst_3 (constant S_ .f32 0x3F000000#32),
    StableHlo.unary main_cst_3 main_v51 (broadcastInDim S32x80 ![] bcast_S_S32x80 : (⟨S_, .f32⟩ : BufTy).Contents (Elt F) → (⟨S32x80, .f32⟩ : BufTy).Contents (Elt F)),
    StableHlo.binary main_v46 main_v51 main_v52 (mulf : (⟨S32x80, .f32⟩ : BufTy).Contents (Elt F) → (⟨S32x80, .f32⟩ : BufTy).Contents (Elt F) → (⟨S32x80, .f32⟩ : BufTy).Contents (Elt F)),
    StableHlo.binary main_v34 main_v52 main_v53 (subf : (⟨S32x80, .f32⟩ : BufTy).Contents (Elt F) → (⟨S32x80, .f32⟩ : BufTy).Contents (Elt F) → (⟨S32x80, .f32⟩ : BufTy).Contents (Elt F)),
    StableHlo.TRef.unary (.of main_v53) main_call1.v0 Host.roundeven,
    StableHlo.TRef.unary (.of main_v40) main_call2.v0 Host.roundeven,
    StableHlo.TRef.unary (.of main_v46) main_call3.v0 Host.roundeven,
    StableHlo.nullary main_cst_4 (constant S_ .f32 0x447A0000#32),
    StableHlo.unary main_cst_4 main_v57 (broadcastInDim S32x80 ![] bcast_S_S32x80 : (⟨S_, .f32⟩ : BufTy).Contents (Elt F) → (⟨S32x80, .f32⟩ : BufTy).Contents (Elt F)),
    StableHlo.binary main_v50 main_v57 main_v58 (Host.divf : (⟨S32x80, .f32⟩ : BufTy).Contents (Elt F) → (⟨S32x80, .f32⟩ : BufTy).Contents (Elt F) → (⟨S32x80, .f32⟩ : BufTy).Contents (Elt F)),
    StableHlo.nullary main_cst_5 (constant S_ .f32 0x44160000#32),
    StableHlo.unary main_cst_5 main_v59 (broadcastInDim S32x80 ![] bcast_S_S32x80 : (⟨S_, .f32⟩ : BufTy).Contents (Elt F) → (⟨S32x80, .f32⟩ : BufTy).Contents (Elt F)),
    StableHlo.binary main_v54 main_v59 main_v60 (Host.divf : (⟨S32x80, .f32⟩ : BufTy).Contents (Elt F) → (⟨S32x80, .f32⟩ : BufTy).Contents (Elt F) → (⟨S32x80, .f32⟩ : BufTy).Contents (Elt F)),
    StableHlo.binary main_v50 main_v55 main_v61 (addf : (⟨S32x80, .f32⟩ : BufTy).Contents (Elt F) → (⟨S32x80, .f32⟩ : BufTy).Contents (Elt F) → (⟨S32x80, .f32⟩ : BufTy).Contents (Elt F)),
    StableHlo.nullary main_cst_6 (constant S_ .f32 0x447A0000#32),
    StableHlo.unary main_cst_6 main_v62 (broadcastInDim S32x80 ![] bcast_S_S32x80 : (⟨S_, .f32⟩ : BufTy).Contents (Elt F) → (⟨S32x80, .f32⟩ : BufTy).Contents (Elt F)),
    StableHlo.binary main_v61 main_v62 main_v63 (Host.divf : (⟨S32x80, .f32⟩ : BufTy).Contents (Elt F) → (⟨S32x80, .f32⟩ : BufTy).Contents (Elt F) → (⟨S32x80, .f32⟩ : BufTy).Contents (Elt F)),
    StableHlo.binary main_v54 main_v56 main_v64 (addf : (⟨S32x80, .f32⟩ : BufTy).Contents (Elt F) → (⟨S32x80, .f32⟩ : BufTy).Contents (Elt F) → (⟨S32x80, .f32⟩ : BufTy).Contents (Elt F)),
    StableHlo.nullary main_cst_7 (constant S_ .f32 0x44160000#32),
    StableHlo.unary main_cst_7 main_v65 (broadcastInDim S32x80 ![] bcast_S_S32x80 : (⟨S_, .f32⟩ : BufTy).Contents (Elt F) → (⟨S32x80, .f32⟩ : BufTy).Contents (Elt F)),
    StableHlo.binary main_v64 main_v65 main_v66 (Host.divf : (⟨S32x80, .f32⟩ : BufTy).Contents (Elt F) → (⟨S32x80, .f32⟩ : BufTy).Contents (Elt F) → (⟨S32x80, .f32⟩ : BufTy).Contents (Elt F)),
    StableHlo.unary main_v58 main_v67 (broadcastInDim S32x80x1 ![0, 1] bcast_S32x80_S32x80x1_0_1 : (⟨S32x80, .f32⟩ : BufTy).Contents (Elt F) → (⟨S32x80x1, .f32⟩ : BufTy).Contents (Elt F)),
    StableHlo.unary main_v60 main_v68 (broadcastInDim S32x80x1 ![0, 1] bcast_S32x80_S32x80x1_0_1 : (⟨S32x80, .f32⟩ : BufTy).Contents (Elt F) → (⟨S32x80x1, .f32⟩ : BufTy).Contents (Elt F)),
    StableHlo.unary main_v63 main_v69 (broadcastInDim S32x80x1 ![0, 1] bcast_S32x80_S32x80x1_0_1 : (⟨S32x80, .f32⟩ : BufTy).Contents (Elt F) → (⟨S32x80x1, .f32⟩ : BufTy).Contents (Elt F)),
    StableHlo.unary main_v66 main_v70 (broadcastInDim S32x80x1 ![0, 1] bcast_S32x80_S32x80x1_0_1 : (⟨S32x80, .f32⟩ : BufTy).Contents (Elt F) → (⟨S32x80x1, .f32⟩ : BufTy).Contents (Elt F)),
    StableHlo.nary ![main_v67, main_v68, main_v69, main_v70] main_v71 (fun u => concatenate S32x80x4 2 [⟨S32x80x1, u 0⟩, ⟨S32x80x1, u 1⟩, ⟨S32x80x1, u 2⟩, ⟨S32x80x1, u 3⟩] concatenates_S32x80x1_S32x80x1_S32x80x1_S32x80x1_S32x80x4_d2),
    StableHlo.unary main_v71 main_v72 ((transpose S80x32x4 [1, 0, 2] · transposes_S32x80x4_S80x32x4_1_0_2) : (⟨S32x80x4, .f32⟩ : BufTy).Contents (Elt F) → (⟨S80x32x4, .f32⟩ : BufTy).Contents (Elt F)),
    StableHlo.unary main_v72 main_v73 (broadcastInDim S80x1x32x4 ![0, 2, 3] bcast_S80x32x4_S80x1x32x4_0_2_3 : (⟨S80x32x4, .f32⟩ : BufTy).Contents (Elt F) → (⟨S80x1x32x4, .f32⟩ : BufTy).Contents (Elt F)),
    StableHlo.unary main_arg1 main_v74 (broadcastInDim S1x1x32x81 ![1, 2, 3] bcast_S1x32x81_S1x1x32x81_1_2_3 : (⟨S1x32x81, .f32⟩ : BufTy).Contents (Elt F) → (⟨S1x1x32x81, .f32⟩ : BufTy).Contents (Elt F)),
    StableHlo.unary main_v74 main_v75 (broadcastInDim S80x1x32x81 ![0, 1, 2, 3] bcast_S1x1x32x81_S80x1x32x81_0_1_2_3 : (⟨S1x1x32x81, .f32⟩ : BufTy).Contents (Elt F) → (⟨S80x1x32x81, .f32⟩ : BufTy).Contents (Elt F)),
    StableHlo.binary main_v75 main_v73 main_v76 ((fun a b => concatenate S80x1x32x85 3 [⟨S80x1x32x81, a⟩, ⟨S80x1x32x4, b⟩] concatenates_S80x1x32x81_S80x1x32x4_S80x1x32x85_d3) : (⟨S80x1x32x81, .f32⟩ : BufTy).Contents (Elt F) → (⟨S80x1x32x4, .f32⟩ : BufTy).Contents (Elt F) → (⟨S80x1x32x85, .f32⟩ : BufTy).Contents (Elt F)),
    StableHlo.unary main_arg4 main_v77 (broadcastInDim S80x1x32x1 ![0, 1, 2] bcast_S80x1x32_S80x1x32x1_0_1_2 : (⟨S80x1x32, .i32⟩ : BufTy).Contents (Elt F) → (⟨S80x1x32x1, .i32⟩ : BufTy).Contents (Elt F)),
    StableHlo.unary main_v77 main_v78 (sitofp .f32 : (⟨S80x1x32x1, .i32⟩ : BufTy).Contents (Elt F) → (⟨S80x1x32x1, .f32⟩ : BufTy).Contents (Elt F)),
    StableHlo.unary main_v78 main_v79 (broadcastInDim S80x1x32x85 ![0, 1, 2, 3] bcast_S80x1x32x1_S80x1x32x85_0_1_2_3 : (⟨S80x1x32x1, .f32⟩ : BufTy).Contents (Elt F) → (⟨S80x1x32x85, .f32⟩ : BufTy).Contents (Elt F)),
    StableHlo.binary main_v76 main_v79 main_v80 (mulf : (⟨S80x1x32x85, .f32⟩ : BufTy).Contents (Elt F) → (⟨S80x1x32x85, .f32⟩ : BufTy).Contents (Elt F) → (⟨S80x1x32x85, .f32⟩ : BufTy).Contents (Elt F)) ]

-- ninety binds reassociated: the rewrite under the chain recurses once per statement
set_option maxRecDepth 8192 in
set_option maxHeartbeats 4000000 in
/-- The entry function is that straight line: the two windows and the rounding function's body unfolded at
    the four calls, both sides are one chain of steps once sequencing is reassociated. -/
theorem main_eq (c : Dev nD) : main (F := F) c = seq ops := by
  simp only [main, main_part0, main_part1, fn_round.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., reshape_bufs_sub .., reshape_bufs_sub .., unary_bufs_sub .., unary_bufs_sub .., binary_bufs_sub ..,
    unary_bufs_sub .., reshape_bufs_sub .., unary_bufs_sub .., reshape_bufs_sub .., unary_bufs_sub .., reshape_bufs_sub ..,
    unary_bufs_sub .., reshape_bufs_sub .., nullary_bufs_sub .., unary_bufs_sub .., binary_bufs_sub .., binary_bufs_sub ..,
    nullary_bufs_sub .., unary_bufs_sub .., binary_bufs_sub .., binary_bufs_sub .., unary_bufs_sub .., reshape_bufs_sub ..,
    unary_bufs_sub .., unary_bufs_sub .., binary_bufs_sub .., unary_bufs_sub .., unary_bufs_sub .., binary_bufs_sub ..,
    unary_bufs_sub .., reshape_bufs_sub .., unary_bufs_sub .., unary_bufs_sub .., binary_bufs_sub .., unary_bufs_sub ..,
    unary_bufs_sub .., binary_bufs_sub .., unary_bufs_sub .., reshape_bufs_sub .., unary_bufs_sub .., unary_bufs_sub ..,
    unary_bufs_sub .., binary_bufs_sub .., unary_bufs_sub .., reshape_bufs_sub .., unary_bufs_sub .., unary_bufs_sub ..,
    unary_bufs_sub .., binary_bufs_sub .., nullary_bufs_sub .., unary_bufs_sub .., binary_bufs_sub .., binary_bufs_sub ..,
    unary_bufs_sub .., nullary_bufs_sub .., unary_bufs_sub .., binary_bufs_sub .., binary_bufs_sub .., unary_bufs_sub ..,
    unary_bufs_sub .., unary_bufs_sub .., nullary_bufs_sub .., unary_bufs_sub .., binary_bufs_sub .., nullary_bufs_sub ..,
    unary_bufs_sub .., binary_bufs_sub .., binary_bufs_sub .., nullary_bufs_sub .., unary_bufs_sub .., binary_bufs_sub ..,
    binary_bufs_sub .., nullary_bufs_sub .., unary_bufs_sub .., binary_bufs_sub .., unary_bufs_sub .., unary_bufs_sub ..,
    unary_bufs_sub .., unary_bufs_sub .., nary_bufs_sub .., unary_bufs_sub .., unary_bufs_sub .., unary_bufs_sub ..,
    unary_bufs_sub .., binary_bufs_sub .., unary_bufs_sub .., unary_bufs_sub .., unary_bufs_sub .., binary_bufs_sub ..⟩

/-- At the compiled mesh, for any float values, from any memory with zero counters: every weakly fair
    execution of the entry function terminates, and every final state has each TensorCore buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  What the reference program computes, as ONE term of its arguments.

  The program's result is the entrywise product of a 0/1 mask (the integer mask read as a real number and
  repeated along the last axis) with the concatenation, along the last axis, of the 81 class scores of each
  region (repeated for every class) and the four numbers of the decoded box. The decoded box is built from
  the standardized regression targets — the raw targets regrouped by fours and divided by the four standard
  deviations, then one column of the four at a time — and the regions' boxes (x, y, w, h): centre
  t · e + (p + e · ½), size exp s · e, low corner = round (centre − size · ½), size rounded, and the four
  numbers corner / 1000, corner / 600, (corner + size) / 1000, (corner + size) / 600, stacked along a new last
  axis, the region and class axes exchanged, a unit axis inserted.

  The term is staged through named pieces so that each can be read at an index on its own.
-/
import proofs.«102958_j43843026157745_1_alg».proof.Proof.Gen.ReferenceIdeal
import Idealize.ShloMosaic.PureOps.Ideal

noncomputable section

namespace Cert.ReferenceIdeal.RefValue

open Idealize.ShloMosaic Cert.ReferenceIdeal Cert.ReferenceIdeal.Gen

/-! ## The standardized targets, column by column -/

/-- Column 0 of the standardized targets, one entry per (region, class): entry 0 of the class's four, divided
    by its standard deviation. -/
def tcol0 (a0 : FVec Ideal S1x32x320 .f32) : FVec Ideal S32x80 .f32 :=
  shapeCast S32x80 (extractStridedSlice S32x80x1 ![0, 0, 0] (Host.divf (F := Ideal) (shapeCast S32x80x4 (shapeCast S32x320 a0 shapeCasts_S1x32x320_S32x320) shapeCasts_S32x320_S32x80x4) (broadcastInDim S32x80x4 ![0, 1, 2] bcast_S1x1x4_S32x80x4_0_1_2 (broadcastInDim S1x1x4 ![2] bcast_S4_S1x1x4_2 (fun i => FloatOps.ofBits .f32 (lit0 (S4.rowMajor i)))))) slices_S32x80x4_S32x80x1_0_0_0) shapeCasts_S32x80x1_S32x80

/-- Column 1 of the standardized targets, one entry per (region, class): entry 1 of the class's four, divided
    by its standard deviation. -/
def tcol1 (a0 : FVec Ideal S1x32x320 .f32) : FVec Ideal S32x80 .f32 :=
  shapeCast S32x80 (extractStridedSlice S32x80x1 ![0, 0, 1] (Host.divf (F := Ideal) (shapeCast S32x80x4 (shapeCast S32x320 a0 shapeCasts_S1x32x320_S32x320) shapeCasts_S32x320_S32x80x4) (broadcastInDim S32x80x4 ![0, 1, 2] bcast_S1x1x4_S32x80x4_0_1_2 (broadcastInDim S1x1x4 ![2] bcast_S4_S1x1x4_2 (fun i => FloatOps.ofBits .f32 (lit0 (S4.rowMajor i)))))) slices_S32x80x4_S32x80x1_0_0_1) shapeCasts_S32x80x1_S32x80

/-- Column 2 of the standardized targets, one entry per (region, class): entry 2 of the class's four, divided
    by its standard deviation. -/
def tcol2 (a0 : FVec Ideal S1x32x320 .f32) : FVec Ideal S32x80 .f32 :=
  shapeCast S32x80 (extractStridedSlice S32x80x1 ![0, 0, 2] (Host.divf (F := Ideal) (shapeCast S32x80x4 (shapeCast S32x320 a0 shapeCasts_S1x32x320_S32x320) shapeCasts_S32x320_S32x80x4) (broadcastInDim S32x80x4 ![0, 1, 2] bcast_S1x1x4_S32x80x4_0_1_2 (broadcastInDim S1x1x4 ![2] bcast_S4_S1x1x4_2 (fun i => FloatOps.ofBits .f32 (lit0 (S4.rowMajor i)))))) slices_S32x80x4_S32x80x1_0_0_2) shapeCasts_S32x80x1_S32x80

/-- Column 3 of the standardized targets, one entry per (region, class): entry 3 of the class's four, divided
    by its standard deviation. -/
def tcol3 (a0 : FVec Ideal S1x32x320 .f32) : FVec Ideal S32x80 .f32 :=
  shapeCast S32x80 (extractStridedSlice S32x80x1 ![0, 0, 3] (Host.divf (F := Ideal) (shapeCast S32x80x4 (shapeCast S32x320 a0 shapeCasts_S1x32x320_S32x320) shapeCasts_S32x320_S32x80x4) (broadcastInDim S32x80x4 ![0, 1, 2] bcast_S1x1x4_S32x80x4_0_1_2 (broadcastInDim S1x1x4 ![2] bcast_S4_S1x1x4_2 (fun i => FloatOps.ofBits .f32 (lit0 (S4.rowMajor i)))))) slices_S32x80x4_S32x80x1_0_0_3) shapeCasts_S32x80x1_S32x80

/-! ## The regions' boxes -/

/-- The regions' low corner along the width, one per region: entry 0 of each box. -/
def boxX (a2 : FVec Ideal S1x32x4 .f32) : FVec Ideal S32 .f32 :=
  shapeCast S32 (extractStridedSlice S1x32x1 ![0, 0, 0] a2 slices_S1x32x4_S1x32x1_0_0_0) shapeCasts_S1x32x1_S32

/-- The regions' low corner along the height, one per region: entry 1 of each box. -/
def boxY (a2 : FVec Ideal S1x32x4 .f32) : FVec Ideal S32 .f32 :=
  shapeCast S32 (extractStridedSlice S1x32x1 ![0, 0, 1] a2 slices_S1x32x4_S1x32x1_0_0_1) shapeCasts_S1x32x1_S32

/-- The regions' width, one per region: entry 2 of each box. -/
def boxW (a2 : FVec Ideal S1x32x4 .f32) : FVec Ideal S32 .f32 :=
  shapeCast S32 (extractStridedSlice S1x32x1 ![0, 0, 2] a2 slices_S1x32x4_S1x32x1_0_0_2) shapeCasts_S1x32x1_S32

/-- The regions' height, one per region: entry 3 of each box. -/
def boxH (a2 : FVec Ideal S1x32x4 .f32) : FVec Ideal S32 .f32 :=
  shapeCast S32 (extractStridedSlice S1x32x1 ![0, 0, 3] a2 slices_S1x32x4_S1x32x1_0_0_3) shapeCasts_S1x32x1_S32

/-! ## The decoded box, one (region, class) entry at a time -/

/-- One half, once per region. -/
def half1 : FVec Ideal S32 .f32 := broadcastInDim S32 ![] bcast_S_S32 (constant (F := Ideal) S_ .f32 0x3F000000#32)

/-- One half, once per (region, class). -/
def half2 : FVec Ideal S32x80 .f32 := broadcastInDim S32x80 ![] bcast_S_S32x80 (constant (F := Ideal) S_ .f32 0x3F000000#32)

/-- The image's width 1000, once per (region, class). -/
def width2 : FVec Ideal S32x80 .f32 := broadcastInDim S32x80 ![] bcast_S_S32x80 (constant (F := Ideal) S_ .f32 0x447A0000#32)

/-- The image's height 600, once per (region, class). -/
def height2 : FVec Ideal S32x80 .f32 := broadcastInDim S32x80 ![] bcast_S_S32x80 (constant (F := Ideal) S_ .f32 0x44160000#32)

/-- A per-region quantity repeated for every class. -/
def spread (v : FVec Ideal S32 .f32) : FVec Ideal S32x80 .f32 :=
  broadcastInDim S32x80 ![0, 1] bcast_S32x1_S32x80_0_1 (broadcastInDim S32x1 ![0] bcast_S32_S32x1_0 v)

/-- The decoded size along one axis, before rounding: exp s · e. -/
def size (s : FVec Ideal S32x80 .f32) (e : FVec Ideal S32 .f32) : FVec Ideal S32x80 .f32 :=
  mulf (Host.exp (F := Ideal) s) (spread e)

/-- The decoded centre along one axis: t · e + (p + e · ½). -/
def centre (t : FVec Ideal S32x80 .f32) (p e : FVec Ideal S32 .f32) : FVec Ideal S32x80 .f32 :=
  addf (mulf t (spread e)) (spread (addf p (mulf e half1)))

/-- The rounded low corner along one axis: round (centre − size · ½). -/
def lowCorner (t s : FVec Ideal S32x80 .f32) (p e : FVec Ideal S32 .f32) : FVec Ideal S32x80 .f32 :=
  Host.roundeven (F := Ideal) (subf (centre t p e) (mulf (size s e) half2))

/-- The rounded size along one axis. -/
def roundSize (s : FVec Ideal S32x80 .f32) (e : FVec Ideal S32 .f32) : FVec Ideal S32x80 .f32 :=
  Host.roundeven (F := Ideal) (size s e)

/-- A (region, class) quantity with a unit last axis added. -/
def lift (v : FVec Ideal S32x80 .f32) : FVec Ideal S32x80x1 .f32 :=
  broadcastInDim S32x80x1 ![0, 1] bcast_S32x80_S32x80x1_0_1 v

/-- The four reported numbers of every (region, class), along a last axis of four: from the rounded corners
    `gx`, `gy` and the rounded sizes `gw`, `gh`. -/
def stack4 (gx gy gw gh : FVec Ideal S32x80 .f32) : FVec Ideal S32x80x4 .f32 :=
  concatenate S32x80x4 2 [⟨S32x80x1, lift (Host.divf (F := Ideal) gx width2)⟩, ⟨S32x80x1, lift (Host.divf (F := Ideal) gy height2)⟩, ⟨S32x80x1, lift (Host.divf (F := Ideal) (addf gx gw) width2)⟩, ⟨S32x80x1, lift (Host.divf (F := Ideal) (addf gy gh) height2)⟩] concatenates_S32x80x1_S32x80x1_S32x80x1_S32x80x1_S32x80x4_d2

/-- The same with the class axis first, a unit axis, then the region axis. -/
def coords (gx gy gw gh : FVec Ideal S32x80 .f32) : FVec Ideal S80x1x32x4 .f32 :=
  broadcastInDim S80x1x32x4 ![0, 2, 3] bcast_S80x32x4_S80x1x32x4_0_2_3 (transpose S80x32x4 [1, 0, 2] (stack4 gx gy gw gh) transposes_S32x80x4_S80x32x4_1_0_2)

/-- The regions' class scores, repeated for every class. -/
def scores (a1 : FVec Ideal S1x32x81 .f32) : FVec Ideal S80x1x32x81 .f32 :=
  broadcastInDim S80x1x32x81 ![0, 1, 2, 3] bcast_S1x1x32x81_S80x1x32x81_0_1_2_3 (broadcastInDim S1x1x32x81 ![1, 2, 3] bcast_S1x32x81_S1x1x32x81_1_2_3 a1)

/-- The integer mask as real numbers, repeated along the last axis. -/
def maskv (a4 : IVec S80x1x32 32) : FVec Ideal S80x1x32x85 .f32 :=
  broadcastInDim S80x1x32x85 ![0, 1, 2, 3] bcast_S80x1x32x1_S80x1x32x85_0_1_2_3 (sitofp (F := Ideal) .f32 (broadcastInDim S80x1x32x1 ![0, 1, 2] bcast_S80x1x32_S80x1x32x1_0_1_2 a4))

/-- The program's result: scores then box numbers along the last axis, times the mask. -/
def out (a0 : FVec Ideal S1x32x320 .f32) (a1 : FVec Ideal S1x32x81 .f32) (a2 : FVec Ideal S1x32x4 .f32) (a4 : IVec S80x1x32 32) :
    FVec Ideal S80x1x32x85 .f32 :=
  mulf (concatenate S80x1x32x85 3 [⟨S80x1x32x81, scores a1⟩, ⟨S80x1x32x4, coords
      (lowCorner (tcol0 a0) (tcol2 a0) (boxX a2) (boxW a2)) (lowCorner (tcol1 a0) (tcol3 a0) (boxY a2) (boxH a2))
      (roundSize (tcol2 a0) (boxW a2)) (roundSize (tcol3 a0) (boxH a2))⟩] concatenates_S80x1x32x81_S80x1x32x4_S80x1x32x85_d3)
    (maskv a4)

end Cert.ReferenceIdeal.RefValue

end
-- ==== Proof.Spec.lean ====
/-
  The mathematics both programs compute, entry by entry, on the extended reals.

  For a region of interest r (32 of them) with box (x, y, w, h) and a class c (80 of them) with regression
  targets (t0, t1, t2, t3) — the four consecutive entries 4c .. 4c+3 of the region's row, each already divided by
  its standard deviation —, the decoded box has centre
      cx' = t0 · w + (x + w · ½),   cy' = t1 · h + (y + h · ½)
  and size
      w' = exp t2 · w,   h' = exp t3 · h.
  Its low corner and size are rounded to the nearest integer, ties to even,
      gx = round (cx' − w' · ½),  gy = round (cy' − h' · ½),  gw = round w',  gh = round h',
  and the four numbers reported are the corners scaled to the unit square of a 1000 × 600 image:
      gx / 1000,  gy / 600,  (gx + gw) / 1000,  (gy + gh) / 600.
  Every reported entry — the 81 class scores of the region followed by these four — is multiplied by the
  class's 0/1 mask for that region, read as a real number.

  One program divides by 1000 and 600; the other multiplies by the exact reciprocals 1/1000 and 1/600. On the
  extended reals the quotient by a nonzero real IS the product with its reciprocal, for every extended real
  numerator (infinite ones included), so the two agree with no finiteness assumption. One program writes ½ · w',
  the other w' · ½: multiplication of extended reals is commutative.
-/
import Idealize.ShloMosaic.PureOps.Ideal

noncomputable section

namespace Cert.BoxDecode

open Idealize.ShloMosaic

/-- One half, as the single-precision word both programs spell it with. -/
abbrev half : EReal := Ideal.ofBits .f32 0x3F000000#32

/-- Rounding to the nearest integer, ties to even; the infinities are fixed. -/
abbrev rnd : EReal → EReal := Ideal.liftRound Ideal.roundHalfEven

/-- The exact reciprocals of the image's width and height. -/
abbrev invW : EReal := ((1 / 1000 : ℝ) : EReal)
abbrev invH : EReal := ((1 / 600 : ℝ) : EReal)

/-- The rounded low corner along one axis: target `t` of the centre, target `s` of the size, box position `p`
    and box extent `e` on that axis. -/
def corner (t s p e : EReal) : EReal := rnd (t * e + (p + e * half) - Ideal.exp s * e * half)

/-- The rounded size along one axis. -/
def extent (s e : EReal) : EReal := rnd (Ideal.exp s * e)

/-- The four reported numbers of a decoded box. -/
def left (t0 t2 x w : EReal) : EReal := corner t0 t2 x w * invW
def top (t1 t3 y h : EReal) : EReal := corner t1 t3 y h * invH
def right (t0 t2 x w : EReal) : EReal := (corner t0 t2 x w + extent t2 w) * invW
def bottom (t1 t3 y h : EReal) : EReal := (corner t1 t3 y h + extent t3 h) * invH

/-- The corner with the half-size written half first: the same number. -/
theorem corner_comm (t s p e : EReal) :
    rnd (t * e + (p + e * half) - half * (Ideal.exp s * e)) = corner t s p e := by
  unfold corner; rw [mul_comm half]

/-- The single-precision word of `1000.0` denotes the real 1000, -/
theorem ofBits_1000 : Ideal.ofBits .f32 0x447A0000#32 = ((1000 : ℝ) : EReal) := by
  simp [Ideal.ofBits, Ideal.ieee, -EReal.coe_mul]; norm_num

/-- and that of `600.0` the real 600. -/
theorem ofBits_600 : Ideal.ofBits .f32 0x44160000#32 = ((600 : ℝ) : EReal) := by
  simp [Ideal.ofBits, Ideal.ieee, -EReal.coe_mul]; norm_num

/-- Dividing by the width is multiplying by its reciprocal, for every extended real. -/
theorem div_W (x : EReal) : Ideal.div x (Ideal.ofBits .f32 0x447A0000#32) = x * invW := by
  rw [ofBits_1000]; exact Ideal.div_coe (by norm_num) x

/-- Dividing by the height is multiplying by its reciprocal, for every extended real. -/
theorem div_H (x : EReal) : Ideal.div x (Ideal.ofBits .f32 0x44160000#32) = x * invH := by
  rw [ofBits_600]; exact Ideal.div_coe (by norm_num) x

end Cert.BoxDecode

end
-- ==== Proof.RefIndex.lean ====
/-
  The reference program's result read at one index.

  Every layout operation of the program — a slice, a regrouping, a repetition along new or unit axes, an
  exchange of axes, a concatenation — reads, at an index of its result, its operand at one index; each is stated
  here once, over arbitrary operands, with the index arithmetic discharged. The arithmetic operations read
  entrywise on the extended reals. Chained, they give the result's entry (c, ·, r, k): for k < 81 the region's
  score k, for k = 81 … 84 the decoded box's left, top, right, bottom — each times the mask of (c, r). The
  quotients by the words of 1000.0 and 600.0 become products with the exact reciprocals.
-/
import proofs.«102958_j43843026157745_1_alg».proof.Proof.RefTerm
import proofs.«102958_j43843026157745_1_alg».proof.Proof.Spec
import Idealize.ShloMosaic.Lib.ValueIdx
import Idealize.ShloMosaic.Lib.ValueLayout
import Idealize.ShloMosaic.Lib.Pipeline.Value

noncomputable section

namespace Cert.ReferenceIdeal.RefValue

open Idealize.ShloMosaic Idealize.ShloMosaic.ValueIdx Cert.ReferenceIdeal Cert.ReferenceIdeal.Gen

/-! ## The per-region quantities -/

/-- Entry 0 of region `r`'s box. -/
theorem boxX_apply (a2 : FVec Ideal S1x32x4 .f32) (r : Fin 32) :
    boxX a2 (ix1 r) = a2 (ix3 (0 : Fin 1) r (0 : Fin 4)) := by
  unfold boxX
  refine (shapeCast_apply _ _ (ix1 r) (ix3 (0 : Fin 1) r (0 : Fin 1)) ?_).trans ?_
  · rw [Shape.rowMajor_val_three, Shape.rowMajor_val_one]
    show (0 * 32 + r.val) * 1 + 0 = r.val
    omega
  · exact extractStridedSlice_apply _ _ _ (ix3 (0 : Fin 1) r (0 : Fin 1)) (ix3 (0 : Fin 1) r (0 : Fin 4)) (fun a => by
      match a with
      | ⟨0, _⟩ => rfl
      | ⟨1, _⟩ => exact (Nat.zero_add _).symm
      | ⟨2, _⟩ => rfl)

/-- Entry 1 of region `r`'s box. -/
theorem boxY_apply (a2 : FVec Ideal S1x32x4 .f32) (r : Fin 32) :
    boxY a2 (ix1 r) = a2 (ix3 (0 : Fin 1) r (1 : Fin 4)) := by
  unfold boxY
  refine (shapeCast_apply _ _ (ix1 r) (ix3 (0 : Fin 1) r (0 : Fin 1)) ?_).trans ?_
  · rw [Shape.rowMajor_val_three, Shape.rowMajor_val_one]
    show (0 * 32 + r.val) * 1 + 0 = r.val
    omega
  · exact extractStridedSlice_apply _ _ _ (ix3 (0 : Fin 1) r (0 : Fin 1)) (ix3 (0 : Fin 1) r (1 : Fin 4)) (fun a => by
      match a with
      | ⟨0, _⟩ => rfl
      | ⟨1, _⟩ => exact (Nat.zero_add _).symm
      | ⟨2, _⟩ => rfl)

/-- Entry 2 of region `r`'s box. -/
theorem boxW_apply (a2 : FVec Ideal S1x32x4 .f32) (r : Fin 32) :
    boxW a2 (ix1 r) = a2 (ix3 (0 : Fin 1) r (2 : Fin 4)) := by
  unfold boxW
  refine (shapeCast_apply _ _ (ix1 r) (ix3 (0 : Fin 1) r (0 : Fin 1)) ?_).trans ?_
  · rw [Shape.rowMajor_val_three, Shape.rowMajor_val_one]
    show (0 * 32 + r.val) * 1 + 0 = r.val
    omega
  · exact extractStridedSlice_apply _ _ _ (ix3 (0 : Fin 1) r (0 : Fin 1)) (ix3 (0 : Fin 1) r (2 : Fin 4)) (fun a => by
      match a with
      | ⟨0, _⟩ => rfl
      | ⟨1, _⟩ => exact (Nat.zero_add _).symm
      | ⟨2, _⟩ => rfl)

/-- Entry 3 of region `r`'s box. -/
theorem boxH_apply (a2 : FVec Ideal S1x32x4 .f32) (r : Fin 32) :
    boxH a2 (ix1 r) = a2 (ix3 (0 : Fin 1) r (3 : Fin 4)) := by
  unfold boxH
  refine (shapeCast_apply _ _ (ix1 r) (ix3 (0 : Fin 1) r (0 : Fin 1)) ?_).trans ?_
  · rw [Shape.rowMajor_val_three, Shape.rowMajor_val_one]
    show (0 * 32 + r.val) * 1 + 0 = r.val
    omega
  · exact extractStridedSlice_apply _ _ _ (ix3 (0 : Fin 1) r (0 : Fin 1)) (ix3 (0 : Fin 1) r (3 : Fin 4)) (fun a => by
      match a with
      | ⟨0, _⟩ => rfl
      | ⟨1, _⟩ => exact (Nat.zero_add _).symm
      | ⟨2, _⟩ => rfl)

/-- A per-region quantity repeated for every class reads the region's. -/
theorem spread_apply (v : FVec Ideal S32 .f32) (r : Fin 32) (c : Fin 80) : spread v (ix2 r c) = v (ix1 r) := by
  unfold spread
  refine (broadcastInDim_apply _ _ _ (ix2 r c) (ix2 r (0 : Fin 1)) (fun a => ?_)).trans ?_
  · match a with
    | ⟨0, _⟩ => rfl
    | ⟨1, _⟩ => rfl
  · exact broadcastInDim_apply _ _ _ (ix2 r (0 : Fin 1)) (ix1 r) (fun a => by
      match a with
      | ⟨0, _⟩ => rfl)

/-! ## The decoded box at a (region, class) -/

/-- The rounded low corner at (r, c) is the corner of the entry's targets and the region's box. -/
theorem lowCorner_apply (t s : FVec Ideal S32x80 .f32) (p e : FVec Ideal S32 .f32) (r : Fin 32) (c : Fin 80) :
    lowCorner t s p e (ix2 r c) = Cert.BoxDecode.corner (t (ix2 r c)) (s (ix2 r c)) (p (ix1 r)) (e (ix1 r)) := by
  unfold lowCorner centre size Cert.BoxDecode.corner
  show Cert.BoxDecode.rnd (t (ix2 r c) * spread e (ix2 r c) + spread (addf p (mulf e half1)) (ix2 r c)
      - Ideal.exp (s (ix2 r c)) * spread e (ix2 r c) * half2 (ix2 r c)) = _
  rw [spread_apply, spread_apply]
  rfl

/-- The rounded size at (r, c) is the extent of the entry's target and the region's box. -/
theorem roundSize_apply (s : FVec Ideal S32x80 .f32) (e : FVec Ideal S32 .f32) (r : Fin 32) (c : Fin 80) :
    roundSize s e (ix2 r c) = Cert.BoxDecode.extent (s (ix2 r c)) (e (ix1 r)) := by
  unfold roundSize size Cert.BoxDecode.extent
  show Cert.BoxDecode.rnd (Ideal.exp (s (ix2 r c)) * spread e (ix2 r c)) = _
  rw [spread_apply]

/-! ## The stacking of the four numbers -/

/-- A unit last axis added reads the operand. -/
theorem lift_apply (v : FVec Ideal S32x80 .f32) (r : Fin 32) (c : Fin 80) (z : Fin 1) : lift v (ix3 r c z) = v (ix2 r c) := by
  unfold lift
  exact broadcastInDim_apply _ _ _ (ix3 r c z) (ix2 r c) (fun a => by
    match a with
    | ⟨0, _⟩ => rfl
    | ⟨1, _⟩ => rfl)

/-- Lane 0 of the four stacked pieces is piece 0. -/
theorem concat4_apply0 (p0 p1 p2 p3 : FVec Ideal S32x80x1 .f32) (r : Fin 32) (c : Fin 80) :
    concatenate S32x80x4 2 [⟨S32x80x1, p0⟩, ⟨S32x80x1, p1⟩, ⟨S32x80x1, p2⟩, ⟨S32x80x1, p3⟩]
        concatenates_S32x80x1_S32x80x1_S32x80x1_S32x80x1_S32x80x4_d2 (ix3 r c (0 : Fin 4))
      = p0 (ix3 r c (0 : Fin 1)) :=
  concatenate_apply_piece _ _ _ (ix3 r c (0 : Fin 4)) 0 (by simp) S32x80x1 p0 rfl rfl 0 rfl (ix3 r c (0 : Fin 1))
    (fun b hb => by
      match b, hb with
      | ⟨0, _⟩, _ => rfl
      | ⟨1, _⟩, _ => rfl
      | ⟨2, _⟩, hb => exact absurd rfl hb) rfl

/-- Lane 1 of the four stacked pieces is piece 1. -/
theorem concat4_apply1 (p0 p1 p2 p3 : FVec Ideal S32x80x1 .f32) (r : Fin 32) (c : Fin 80) :
    concatenate S32x80x4 2 [⟨S32x80x1, p0⟩, ⟨S32x80x1, p1⟩, ⟨S32x80x1, p2⟩, ⟨S32x80x1, p3⟩]
        concatenates_S32x80x1_S32x80x1_S32x80x1_S32x80x1_S32x80x4_d2 (ix3 r c (1 : Fin 4))
      = p1 (ix3 r c (0 : Fin 1)) :=
  concatenate_apply_piece _ _ _ (ix3 r c (1 : Fin 4)) 1 (by simp) S32x80x1 p1 rfl rfl 1 rfl (ix3 r c (0 : Fin 1))
    (fun b hb => by
      match b, hb with
      | ⟨0, _⟩, _ => rfl
      | ⟨1, _⟩, _ => rfl
      | ⟨2, _⟩, hb => exact absurd rfl hb) rfl

/-- Lane 2 of the four stacked pieces is piece 2. -/
theorem concat4_apply2 (p0 p1 p2 p3 : FVec Ideal S32x80x1 .f32) (r : Fin 32) (c : Fin 80) :
    concatenate S32x80x4 2 [⟨S32x80x1, p0⟩, ⟨S32x80x1, p1⟩, ⟨S32x80x1, p2⟩, ⟨S32x80x1, p3⟩]
        concatenates_S32x80x1_S32x80x1_S32x80x1_S32x80x1_S32x80x4_d2 (ix3 r c (2 : Fin 4))
      = p2 (ix3 r c (0 : Fin 1)) :=
  concatenate_apply_piece _ _ _ (ix3 r c (2 : Fin 4)) 2 (by simp) S32x80x1 p2 rfl rfl 2 rfl (ix3 r c (0 : Fin 1))
    (fun b hb => by
      match b, hb with
      | ⟨0, _⟩, _ => rfl
      | ⟨1, _⟩, _ => rfl
      | ⟨2, _⟩, hb => exact absurd rfl hb) rfl

/-- Lane 3 of the four stacked pieces is piece 3. -/
theorem concat4_apply3 (p0 p1 p2 p3 : FVec Ideal S32x80x1 .f32) (r : Fin 32) (c : Fin 80) :
    concatenate S32x80x4 2 [⟨S32x80x1, p0⟩, ⟨S32x80x1, p1⟩, ⟨S32x80x1, p2⟩, ⟨S32x80x1, p3⟩]
        concatenates_S32x80x1_S32x80x1_S32x80x1_S32x80x1_S32x80x4_d2 (ix3 r c (3 : Fin 4))
      = p3 (ix3 r c (0 : Fin 1)) :=
  concatenate_apply_piece _ _ _ (ix3 r c (3 : Fin 4)) 3 (by simp) S32x80x1 p3 rfl rfl 3 rfl (ix3 r c (0 : Fin 1))
    (fun b hb => by
      match b, hb with
      | ⟨0, _⟩, _ => rfl
      | ⟨1, _⟩, _ => rfl
      | ⟨2, _⟩, hb => exact absurd rfl hb) rfl

/-- The region and class axes exchanged. -/
theorem swap_apply (x : FVec Ideal S32x80x4 .f32) (c : Fin 80) (r : Fin 32) (k : Fin 4) :
    transpose S80x32x4 [1, 0, 2] x transposes_S32x80x4_S80x32x4_1_0_2 (ix3 c r k) = x (ix3 r c k) :=
  transpose_apply _ x _ (ix3 c r k) (ix3 r c k) (fun b => by
    match b with
    | ⟨0, _⟩ => rfl
    | ⟨1, _⟩ => rfl
    | ⟨2, _⟩ => rfl)

/-- A unit axis inserted after the first. -/
theorem insertUnit_apply (x : FVec Ideal S80x32x4 .f32) (c : Fin 80) (z : Fin 1) (r : Fin 32) (k : Fin 4) :
    broadcastInDim S80x1x32x4 ![0, 2, 3] bcast_S80x32x4_S80x1x32x4_0_2_3 x (ix4 c z r k) = x (ix3 c r k) :=
  broadcastInDim_apply _ _ x (ix4 c z r k) (ix3 c r k) (fun a => by
    match a with
    | ⟨0, _⟩ => rfl
    | ⟨1, _⟩ => rfl
    | ⟨2, _⟩ => rfl)

/-- Box number 0 of class `c`, region `r`. -/
theorem coords_apply0 (gx gy gw gh : FVec Ideal S32x80 .f32) (c : Fin 80) (z : Fin 1) (r : Fin 32) :
    coords gx gy gw gh (ix4 c z r (0 : Fin 4)) = Ideal.div (gx (ix2 r c)) (Ideal.ofBits .f32 0x447A0000#32) := by
  unfold coords stack4
  rw [insertUnit_apply, swap_apply, concat4_apply0, lift_apply]
  rfl

/-- Box number 1 of class `c`, region `r`. -/
theorem coords_apply1 (gx gy gw gh : FVec Ideal S32x80 .f32) (c : Fin 80) (z : Fin 1) (r : Fin 32) :
    coords gx gy gw gh (ix4 c z r (1 : Fin 4)) = Ideal.div (gy (ix2 r c)) (Ideal.ofBits .f32 0x44160000#32) := by
  unfold coords stack4
  rw [insertUnit_apply, swap_apply, concat4_apply1, lift_apply]
  rfl

/-- Box number 2 of class `c`, region `r`. -/
theorem coords_apply2 (gx gy gw gh : FVec Ideal S32x80 .f32) (c : Fin 80) (z : Fin 1) (r : Fin 32) :
    coords gx gy gw gh (ix4 c z r (2 : Fin 4)) = Ideal.div (gx (ix2 r c) + gw (ix2 r c)) (Ideal.ofBits .f32 0x447A0000#32) := by
  unfold coords stack4
  rw [insertUnit_apply, swap_apply, concat4_apply2, lift_apply]
  rfl

/-- Box number 3 of class `c`, region `r`. -/
theorem coords_apply3 (gx gy gw gh : FVec Ideal S32x80 .f32) (c : Fin 80) (z : Fin 1) (r : Fin 32) :
    coords gx gy gw gh (ix4 c z r (3 : Fin 4)) = Ideal.div (gy (ix2 r c) + gh (ix2 r c)) (Ideal.ofBits .f32 0x44160000#32) := by
  unfold coords stack4
  rw [insertUnit_apply, swap_apply, concat4_apply3, lift_apply]
  rfl

/-! ## The scores, the mask, and the last concatenation -/

/-- The scores repeated for every class read the region's score. -/
theorem scores_apply (a1 : FVec Ideal S1x32x81 .f32) (c : Fin 80) (z : Fin 1) (r : Fin 32) (k : Fin 81) :
    scores a1 (ix4 c z r k) = a1 (ix3 (0 : Fin 1) r k) := by
  unfold scores
  refine (broadcastInDim_apply _ _ _ (ix4 c z r k) (ix4 (0 : Fin 1) (0 : Fin 1) r k) (fun a => ?_)).trans ?_
  · match a with
    | ⟨0, _⟩ => rfl
    | ⟨1, _⟩ => rfl
    | ⟨2, _⟩ => rfl
    | ⟨3, _⟩ => rfl
  · exact broadcastInDim_apply _ _ _ (ix4 (0 : Fin 1) (0 : Fin 1) r k) (ix3 (0 : Fin 1) r k) (fun a => by
      match a with
      | ⟨0, _⟩ => rfl
      | ⟨1, _⟩ => rfl
      | ⟨2, _⟩ => rfl)

/-- The mask repeated along the last axis reads the mask of (class, region) as a real number. -/
theorem maskv_apply (a4 : IVec S80x1x32 32) (c : Fin 80) (z : Fin 1) (r : Fin 32) (k : Fin 85) :
    maskv a4 (ix4 c z r k) = ((((a4 (ix3 c z r)).toInt : ℤ) : ℝ) : EReal) := by
  have hz : z.val = 0 := by omega
  unfold maskv
  refine (broadcastInDim_apply _ _ _ (ix4 c z r k) (ix4 c z r (0 : Fin 1)) (fun a => ?_)).trans ?_
  · match a with
    | ⟨0, _⟩ => rfl
    | ⟨1, _⟩ => exact hz
    | ⟨2, _⟩ => rfl
    | ⟨3, _⟩ => rfl
  · exact congrArg (fun b : BitVec 32 => ((((b.toInt : ℤ) : ℝ)) : EReal))
      (broadcastInDim_apply _ _ a4 (ix4 c z r (0 : Fin 1)) (ix3 c z r) (fun a => by
        match a with
        | ⟨0, _⟩ => rfl
        | ⟨1, _⟩ => exact hz
        | ⟨2, _⟩ => rfl))

/-- Below lane 81 the last concatenation reads the scores. -/
theorem pair_apply_left (A : FVec Ideal S80x1x32x81 .f32) (B : FVec Ideal S80x1x32x4 .f32)
    (c : Fin 80) (z : Fin 1) (r : Fin 32) (k : Fin 85) (hk : k.val < 81) :
    concatenate S80x1x32x85 3 [⟨S80x1x32x81, A⟩, ⟨S80x1x32x4, B⟩] concatenates_S80x1x32x81_S80x1x32x4_S80x1x32x85_d3 (ix4 c z r k)
      = A (ix4 c z r ⟨k.val, hk⟩) :=
  concatenate_pair_apply_left _ A B _ (ix4 c z r k) rfl (ix4 c z r ⟨k.val, hk⟩) (fun b => by
    match b with
    | ⟨0, _⟩ => rfl
    | ⟨1, _⟩ => rfl
    | ⟨2, _⟩ => rfl
    | ⟨3, _⟩ => rfl)

/-- From lane 81 on it reads the box numbers, 81 lanes back. -/
theorem pair_apply_right (A : FVec Ideal S80x1x32x81 .f32) (B : FVec Ideal S80x1x32x4 .f32)
    (c : Fin 80) (z : Fin 1) (r : Fin 32) (k : Fin 85) (q : Fin 4) (hq : q.val + 81 = k.val) :
    concatenate S80x1x32x85 3 [⟨S80x1x32x81, A⟩, ⟨S80x1x32x4, B⟩] concatenates_S80x1x32x81_S80x1x32x4_S80x1x32x85_d3 (ix4 c z r k)
      = B (ix4 c z r q) :=
  concatenate_pair_apply_right _ A B _ (ix4 c z r k) rfl rfl (ix4 c z r q)
    (fun b hb => by
      match b, hb with
      | ⟨0, _⟩, _ => rfl
      | ⟨1, _⟩, _ => rfl
      | ⟨2, _⟩, _ => rfl
      | ⟨3, _⟩, hb => exact absurd rfl hb) hq

/-! ## The result at an index -/

section Out
variable (a0 : FVec Ideal S1x32x320 .f32) (a1 : FVec Ideal S1x32x81 .f32) (a2 : FVec Ideal S1x32x4 .f32) (a4 : IVec S80x1x32 32)
variable (c : Fin 80) (z : Fin 1) (r : Fin 32) (k : Fin 85)

/-- A score lane: the region's score times the mask. -/
theorem out_cls (hk : k.val < 81) :
    out a0 a1 a2 a4 (ix4 c z r k) = a1 (ix3 (0 : Fin 1) r ⟨k.val, hk⟩) * ((((a4 (ix3 c z r)).toInt : ℤ) : ℝ) : EReal) := by
  unfold out
  rw [mulf_apply, pair_apply_left _ _ c z r k hk, scores_apply, maskv_apply]

/-- Lane 81: the decoded box's left edge times the mask. -/
theorem out_left (hk : k.val = 81) :
    out a0 a1 a2 a4 (ix4 c z r k)
      = Cert.BoxDecode.left (tcol0 a0 (ix2 r c)) (tcol2 a0 (ix2 r c)) (a2 (ix3 (0 : Fin 1) r (0 : Fin 4))) (a2 (ix3 (0 : Fin 1) r (2 : Fin 4)))
        * ((((a4 (ix3 c z r)).toInt : ℤ) : ℝ) : EReal) := by
  unfold out
  rw [mulf_apply, pair_apply_right _ _ c z r k (0 : Fin 4) hk.symm, coords_apply0, maskv_apply, lowCorner_apply,
    boxX_apply, boxW_apply, Cert.BoxDecode.div_W]
  rfl

/-- Lane 82: the top edge times the mask. -/
theorem out_top (hk : k.val = 82) :
    out a0 a1 a2 a4 (ix4 c z r k)
      = Cert.BoxDecode.top (tcol1 a0 (ix2 r c)) (tcol3 a0 (ix2 r c)) (a2 (ix3 (0 : Fin 1) r (1 : Fin 4))) (a2 (ix3 (0 : Fin 1) r (3 : Fin 4)))
        * ((((a4 (ix3 c z r)).toInt : ℤ) : ℝ) : EReal) := by
  unfold out
  rw [mulf_apply, pair_apply_right _ _ c z r k (1 : Fin 4) hk.symm, coords_apply1, maskv_apply, lowCorner_apply,
    boxY_apply, boxH_apply, Cert.BoxDecode.div_H]
  rfl

/-- Lane 83: the right edge times the mask. -/
theorem out_right (hk : k.val = 83) :
    out a0 a1 a2 a4 (ix4 c z r k)
      = Cert.BoxDecode.right (tcol0 a0 (ix2 r c)) (tcol2 a0 (ix2 r c)) (a2 (ix3 (0 : Fin 1) r (0 : Fin 4))) (a2 (ix3 (0 : Fin 1) r (2 : Fin 4)))
        * ((((a4 (ix3 c z r)).toInt : ℤ) : ℝ) : EReal) := by
  unfold out
  rw [mulf_apply, pair_apply_right _ _ c z r k (2 : Fin 4) hk.symm, coords_apply2, maskv_apply, lowCorner_apply, roundSize_apply,
    boxX_apply, boxW_apply, Cert.BoxDecode.div_W]
  rfl

/-- Lane 84: the bottom edge times the mask. -/
theorem out_bottom (hk : k.val = 84) :
    out a0 a1 a2 a4 (ix4 c z r k)
      = Cert.BoxDecode.bottom (tcol1 a0 (ix2 r c)) (tcol3 a0 (ix2 r c)) (a2 (ix3 (0 : Fin 1) r (1 : Fin 4))) (a2 (ix3 (0 : Fin 1) r (3 : Fin 4)))
        * ((((a4 (ix3 c z r)).toInt : ℤ) : ℝ) : EReal) := by
  unfold out
  rw [mulf_apply, pair_apply_right _ _ c z r k (3 : Fin 4) hk.symm, coords_apply3, maskv_apply, lowCorner_apply, roundSize_apply,
    boxY_apply, boxH_apply, Cert.BoxDecode.div_H]
  rfl

end Out

end Cert.ReferenceIdeal.RefValue

end
-- ==== Proof.RefValue.lean ====
/-
  What the reference program leaves in memory, as a statement about its result and its arguments.

  Running the straight line of operations leaves each buffer at the fold of the operations' functions over
  the launch contents. At the result buffer that fold is the staged term `out` of the four arguments read
  (the raw targets, the scores, the boxes, the mask): every operation's function composed in program order,
  the four calls' roundings in their places. No operation writes an argument, so the arguments are unchanged.
-/
import proofs.«102958_j43843026157745_1_alg».proof.Proof.RefRun
import proofs.«102958_j43843026157745_1_alg».proof.Proof.RefTerm
import proofs.«102958_j43843026157745_1_alg».proof.Proof.RefIndex

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

set_option maxRecDepth 8192 in
set_option maxHeartbeats 4000000 in
/-- The fold at the result buffer is the staged term of the contents of the four arguments read: each
    operation's result rewritten at its own buffer to its function's value and elsewhere to what was there,
    then the staging definitions unfolded. -/
theorem out_eq (V : Valuation τ sig (Elt Ideal)) :
    after (ops (F := Ideal)) V (main_v80 : DevRef τ sig)
      = out (V (main_arg0 : DevRef τ sig)) (V (main_arg1 : DevRef τ sig)) (V (main_arg2 : DevRef τ sig))
          (V (main_arg4 : DevRef τ sig)) := by
  after_results_simp
  rfl

set_option maxRecDepth 8192 in
set_option maxHeartbeats 4000000 in
/-- No operation writes argument 0. -/
theorem arg0_eq (V : Valuation τ sig (Elt Ideal)) :
    after (ops (F := Ideal)) V (main_arg0 : DevRef τ sig) = V (main_arg0 : DevRef τ sig) := by
  after_results_simp

set_option maxRecDepth 8192 in
set_option maxHeartbeats 4000000 in
/-- No operation writes argument 1. -/
theorem arg1_eq (V : Valuation τ sig (Elt Ideal)) :
    after (ops (F := Ideal)) V (main_arg1 : DevRef τ sig) = V (main_arg1 : DevRef τ sig) := by
  after_results_simp

set_option maxRecDepth 8192 in
set_option maxHeartbeats 4000000 in
/-- No operation writes argument 2. -/
theorem arg2_eq (V : Valuation τ sig (Elt Ideal)) :
    after (ops (F := Ideal)) V (main_arg2 : DevRef τ sig) = V (main_arg2 : DevRef τ sig) := by
  after_results_simp

set_option maxRecDepth 8192 in
set_option maxHeartbeats 4000000 in
/-- No operation writes argument 3. -/
theorem arg3_eq (V : Valuation τ sig (Elt Ideal)) :
    after (ops (F := Ideal)) V (main_arg3 : DevRef τ sig) = V (main_arg3 : DevRef τ sig) := by
  after_results_simp

set_option maxRecDepth 8192 in
set_option maxHeartbeats 4000000 in
/-- No operation writes argument 4. -/
theorem arg4_eq (V : Valuation τ sig (Elt Ideal)) :
    after (ops (F := Ideal)) V (main_arg4 : DevRef τ sig) = V (main_arg4 : DevRef τ sig) := by
  after_results_simp

/-- At the ideal values, from any memory with zero counters: every weakly fair execution of the entry function
    terminates with the result buffer at `out` of the launch contents of the four arguments read, and all five
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v80) = out (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v80).trans (out_eq _),
      (h c main_arg0).trans (arg0_eq _), (h c main_arg1).trans (arg1_eq _), (h c main_arg2).trans (arg2_eq _),
      (h c main_arg3).trans (arg3_eq _), (h c main_arg4).trans (arg4_eq _)⟩)
    (run_main m ρ)

end Cert.ReferenceIdeal.RefValue

end
-- ==== Proof.LibBlocks.lean ====
/-
  Blocks of rank two and three read at an index: the unit axes a vector kernel adds and drops around its stores,
  the two broadcasts that fill a rank-three block from a matrix of rows or from a matrix with a trailing unit axis, the
  host's placement of a rank-three array into a rank-four one with a unit axis in second place, a load of one column
  of a matrix, and where an index of a rank-three block lies relative to a slab cut along the last axis. Each is the
  general "same row-major position" or "trailing coordinates" reading of the operation, with both indices written out
  by coordinates; the extents are free.
-/
import Idealize.ShloMosaic.Lib.ValueLayout

namespace Cert.LibBlocks

open Idealize.ShloMosaic Idealize.ShloMosaic.ValueIdx

variable {α : Type}

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, 1, b]` array cast to `[a, b]` reads, at `(p, q)`, the operand at `(p, 0, q)`. -/
theorem shapeCast_a1b_ab_apply {a b : ℕ} (x : (⟨3, ![a, 1, b]⟩ : Shape).Idx → α)
    (h : (⟨3, ![a, 1, b]⟩ : Shape).ShapeCasts ⟨2, ![a, b]⟩) (p : Fin a) (q : Fin b) :
    shapeCast ⟨2, ![a, b]⟩ x h (ix2 p q) = x (ix3 p (0 : Fin 1) q) :=
  shapeCast_apply x h _ _ (by
    rw [Shape.rowMajor_val_three, Shape.rowMajor_val_two]
    show (p.val * 1 + 0) * b + q.val = p.val * b + q.val
    rw [Nat.mul_one, Nat.add_zero])

/-- A `[1, b, c]` array broadcast to `[a, b, c]` reads, at `(p, q, k)`, the operand's one matrix at `(q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An `[a, b, c]` array placed on axes 0, 2, 3 of an `[a, 1, b, c]` array reads, at `(p, u, q, k)`, the operand at
    `(p, q, k)`. -/
theorem broadcastInDim_abc_a1bc_apply {a b c : ℕ} (x : (⟨3, ![a, b, c]⟩ : Shape).Idx → α)
    (h : (⟨3, ![a, b, c]⟩ : Shape).BroadcastsInDim ⟨4, ![a, 1, b, c]⟩ ![0, 2, 3])
    (p : Fin a) (u : Fin 1) (q : Fin b) (k : Fin c) :
    broadcastInDim ⟨4, ![a, 1, b, c]⟩ ![0, 2, 3] h x (ix4 p u q k) = x (ix3 p q k) := by
  refine broadcastInDim_apply ![0, 2, 3] h x (ix4 p u q k) (ix3 p q k) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show k.val = if c = 1 then 0 else k.val
    split
    · have := k.isLt; omega
    · rfl

section Loads

variable {Val : EltTy → Type} {e : EltTy}

/-- A load of column `j` of an `[a, b]` block, as an `[a, 1]` column, reads at `(p, u)` the block at `(p, j)`. -/
theorem ld_col_apply {a b : ℕ} (X : (⟨2, ![a, b]⟩ : Shape).Idx → Val e) (j : ℕ) (hj : j < b)
    (inb : ∀ ax, (![0, j] : Fin 2 → ℕ) ax + (![a, 1] : Fin 2 → ℕ) ax ≤ (⟨2, ![a, b]⟩ : Shape).size ax)
    (p : Fin a) (u : Fin 1) :
    View.ld X (Rect.unit ![0, j] ![a, 1] inb) (ix2 p u) = X (ix2 p ⟨j, hj⟩) := by
  show X _ = X _
  congr 1
  funext ax
  apply Fin.ext
  match ax with
  | ⟨0, _⟩ => show 0 + 1 * p.val = p.val; omega
  | ⟨1, _⟩ => show j + 1 * u.val = j; omega

end Loads

/-- The slab of an `[a, b, c]` block that keeps the first two axes whole and takes `n` consecutive coordinates from
    `o` on the last: its own index `(p, q, k')` sits at `(p, q, o + k')` of the block. -/
theorem slab_emb {a b c n o : ℕ}
    (inb : ∀ ax, (![0, 0, o] : Fin 3 → ℕ) ax + (![a, b, n] : Fin 3 → ℕ) ax ≤ (⟨3, ![a, b, c]⟩ : Shape).size ax)
    (p : Fin a) (q : Fin b) (k' : Fin n) (hk : o + k'.val < c) :
    (Rect.unit (s := ⟨3, ![a, b, c]⟩) ![0, 0, o] ![a, b, n] inb).emb (ix3 p q k') = ix3 p q ⟨o + k'.val, hk⟩ := by
  funext ax
  apply Fin.ext
  match ax with
  | ⟨0, _⟩ => show 0 + 1 * p.val = p.val; omega
  | ⟨1, _⟩ => show 0 + 1 * q.val = q.val; omega
  | ⟨2, _⟩ => show o + 1 * k'.val = o + k'.val; omega

/-- An index whose last coordinate is before the slab's first or at or past its end is not in the slab. -/
theorem not_mem_slab {a b c n o : ℕ}
    (inb : ∀ ax, (![0, 0, o] : Fin 3 → ℕ) ax + (![a, b, n] : Fin 3 → ℕ) ax ≤ (⟨3, ![a, b, c]⟩ : Shape).size ax)
    (p : Fin a) (q : Fin b) (k : Fin c) (hk : k.val < o ∨ o + n ≤ k.val) :
    ix3 p q k ∉ (Rect.unit (s := ⟨3, ![a, b, c]⟩) ![0, 0, o] ![a, b, n] inb).set := by
  rw [Rect.mem_set_unit]
  intro hm
  have h2 := hm (⟨2, (by show 2 < 3; omega)⟩ : Fin (⟨3, ![a, b, c]⟩ : Shape).rank)
  change o ≤ k.val ∧ k.val < o + n at h2
  omega

end Cert.LibBlocks
-- ==== Proof.LibColumns.lean ====
/-
  Column vectors read at an index: a length-`a` vector viewed as an `[a, 1]` column and back, and a column broadcast
  along the second axis. Each is the general "same row-major position" or "trailing coordinates" reading of the layout
  operation, with both indices written out by coordinates.
-/
import Idealize.ShloMosaic.Lib.ValueLayout

namespace Cert.LibColumns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumns
-- ==== Proof.KPayload.lean ====
/-
  The kernel's payloads read at an index, on the extended reals.

  Entry (c, r, ·) of the output block depends on region r's box (x, y, w, h) — row r of the box block —, on class c's
  four standardized targets for that region — entry (r, c) of the four target blocks —, on the region's class scores —
  row r of the score block — and on the mask entry (c, r). The body computes the decoded box over [32, 80] (regions by
  classes), transposes to [80, 32] and multiplies by the mask; read at an index each store's payload is one of the
  four box numbers, or a class score, times the mask entry. The two scale factors are the named reciprocals 1/1000 and
  1/600.
-/
import proofs.«102958_j43843026157745_1_alg».proof.Proof.KBody
import proofs.«102958_j43843026157745_1_alg».proof.Proof.LibBlocks
import proofs.«102958_j43843026157745_1_alg».proof.Proof.LibColumns
import proofs.«102958_j43843026157745_1_alg».proof.Proof.Spec
import Idealize.ShloMosaic.Lib.ValueLayout
import Idealize.ShloMosaic.PureOps.IdealRules

noncomputable section

namespace Cert.KernelIdeal.Payload

open Idealize.ShloMosaic Idealize.ShloMosaic.ValueIdx
open Cert.KernelIdeal Cert.KernelIdeal.Gen Cert.KernelIdeal.Body Cert.BoxDecode

/-- Rounding and the exponential act entry by entry. -/
theorem roundeven_apply {s : Shape} {φ : FTy} (a : FVec Ideal s φ) (i : s.Idx) : roundeven a i = rnd (a i) := rfl
theorem exp_apply {s : Shape} {φ : FTy} (a : FVec Ideal s φ) (i : s.Idx) : exp a i = Ideal.exp (a i) := rfl

/-- The two named scale factors are the exact reciprocals. -/
theorem named_invW : Named.named (F := Ideal) Cert.KernelIdeal.κ "inv_1000" (φ := .f32) 0x3A83126F#32 = invW :=
  IdealRules.named_const.ideal_named_scalar _ _ _ _ rfl
theorem named_invH : Named.named (F := Ideal) Cert.KernelIdeal.κ "inv_600" (φ := .f32) 0x3ADA740E#32 = invH :=
  IdealRules.named_const.ideal_named_scalar _ _ _ _ rfl

variable (x0 x1 x2 x3 : Vec Ideal S32x80 .f32) (x4 : Vec Ideal S32x4 .f32) (x5 : Vec Ideal S32x81 .f32)
  (x6 : Vec Ideal S80x32 .f32) (r : Fin 32) (c : Fin 80) (u : Fin 1)

/-- The box columns at region `r`. -/
theorem boxX_apply : boxX x4 (ix2 r u) = x4 (ix2 r (0 : Fin 4)) := by
  unfold boxX; exact Cert.LibBlocks.ld_col_apply x4 0 (by omega) _ r u
theorem boxY_apply : boxY x4 (ix2 r u) = x4 (ix2 r (1 : Fin 4)) := by
  unfold boxY; exact Cert.LibBlocks.ld_col_apply x4 1 (by omega) _ r u
theorem boxW_apply : boxW x4 (ix2 r u) = x4 (ix2 r (2 : Fin 4)) := by
  unfold boxW; exact Cert.LibBlocks.ld_col_apply x4 2 (by omega) _ r u
theorem boxH_apply : boxH x4 (ix2 r u) = x4 (ix2 r (3 : Fin 4)) := by
  unfold boxH; exact Cert.LibBlocks.ld_col_apply x4 3 (by omega) _ r u

/-- The decoded sizes at (r, c): exp of the target times the box extent. -/
theorem sizeW_apply : sizeW x4 x2 (ix2 r c) = Ideal.exp (x2 (ix2 r c)) * x4 (ix2 r (2 : Fin 4)) := by
  unfold sizeW k0_pay5 k0_pay2
  simp only [shapeCast_self, mulf_apply, exp_apply, Cert.LibColumns.broadcastTo_a1_ab_apply, boxW_apply]
theorem sizeH_apply : sizeH x4 x3 (ix2 r c) = Ideal.exp (x3 (ix2 r c)) * x4 (ix2 r (3 : Fin 4)) := by
  unfold sizeH k0_pay6 k0_pay3
  simp only [shapeCast_self, mulf_apply, exp_apply, Cert.LibColumns.broadcastTo_a1_ab_apply, boxH_apply]

/-- The decoded centre along y at (r, c). -/
theorem ctrY_apply : ctrY x4 x1 (ix2 r c)
    = x1 (ix2 r c) * x4 (ix2 r (3 : Fin 4)) + (x4 (ix2 r (1 : Fin 4)) + x4 (ix2 r (3 : Fin 4)) * half) := by
  unfold ctrY k0_pay4 k0_pay3
  simp only [shapeCast_self, mulf_apply, addf_apply, broadcast_apply, Cert.LibColumns.broadcastTo_a1_ab_apply,
    boxY_apply, boxH_apply]
  rfl

/-- The rounded low corner along x at (r, c). -/
theorem cornerX_apply : cornerX x4 x0 x2 (ix2 r c)
    = corner (x0 (ix2 r c)) (x2 (ix2 r c)) (x4 (ix2 r (0 : Fin 4))) (x4 (ix2 r (2 : Fin 4))) := by
  unfold cornerX k0_pay7 k0_pay5 k0_pay2
  simp only [shapeCast_self, roundeven_apply, subf_apply, addf_apply, mulf_apply, exp_apply, broadcast_apply,
    Cert.LibColumns.broadcastTo_a1_ab_apply, boxX_apply, boxW_apply]
  exact corner_comm _ _ _ _

/-- The rounded low corner along y at (r, c). -/
theorem cornerY_apply : k0_pay8 (ctrY x4 x1) (sizeH x4 x3) (ix2 r c)
    = corner (x1 (ix2 r c)) (x3 (ix2 r c)) (x4 (ix2 r (1 : Fin 4))) (x4 (ix2 r (3 : Fin 4))) := by
  unfold k0_pay8
  simp only [roundeven_apply, subf_apply, mulf_apply, broadcast_apply, ctrY_apply, sizeH_apply]
  exact corner_comm _ _ _ _

/-- Lane 81: the left edge over the width, times the mask. -/
theorem left_apply : k0_pay12 (cornerX x4 x0 x2) x6 (ix3 c r u)
    = left (x0 (ix2 r c)) (x2 (ix2 r c)) (x4 (ix2 r (0 : Fin 4))) (x4 (ix2 r (2 : Fin 4))) * x6 (ix2 c r) := by
  unfold k0_pay12 k0_pay10
  simp only [shapeCast_self, Cert.LibBlocks.shapeCast_ab_ab1_apply, mulf_apply]
  congr 1
  refine (transpose_ix2_apply _ _ c r).trans ?_
  simp only [mulf_apply, broadcast_apply, cornerX_apply, named_invW]
  rfl

/-- Lane 82: the top edge over the height, times the mask. -/
theorem top_apply : k0_pay13 (ctrY x4 x1) (sizeH x4 x3) x6 (ix3 c r u)
    = top (x1 (ix2 r c)) (x3 (ix2 r c)) (x4 (ix2 r (1 : Fin 4))) (x4 (ix2 r (3 : Fin 4))) * x6 (ix2 c r) := by
  unfold k0_pay13 k0_pay10
  simp only [shapeCast_self, Cert.LibBlocks.shapeCast_ab_ab1_apply, mulf_apply]
  congr 1
  refine (transpose_ix2_apply _ _ c r).trans ?_
  simp only [mulf_apply, broadcast_apply, cornerY_apply, named_invH]
  rfl

/-- Lane 83: the right edge over the width, times the mask. -/
theorem right_apply : k0_pay14 (sizeW x4 x2) (cornerX x4 x0 x2) x6 (ix3 c r u)
    = right (x0 (ix2 r c)) (x2 (ix2 r c)) (x4 (ix2 r (0 : Fin 4))) (x4 (ix2 r (2 : Fin 4))) * x6 (ix2 c r) := by
  unfold k0_pay14 k0_pay10
  simp only [shapeCast_self, Cert.LibBlocks.shapeCast_ab_ab1_apply, mulf_apply]
  congr 1
  refine (transpose_ix2_apply _ _ c r).trans ?_
  simp only [mulf_apply, addf_apply, roundeven_apply, broadcast_apply, cornerX_apply, sizeW_apply, named_invW]
  rfl

/-- Lane 84: the bottom edge over the height, times the mask. -/
theorem bottom_apply : k0_pay1 (k0_pay9 (ctrY x4 x1) (sizeH x4 x3)) (k0_pay10 x6) (ix3 c r u)
    = bottom (x1 (ix2 r c)) (x3 (ix2 r c)) (x4 (ix2 r (1 : Fin 4))) (x4 (ix2 r (3 : Fin 4))) * x6 (ix2 c r) := by
  unfold k0_pay1 k0_pay9 k0_pay10
  simp only [shapeCast_self, Cert.LibBlocks.shapeCast_ab_ab1_apply, mulf_apply]
  congr 1
  refine (transpose_ix2_apply _ _ c r).trans ?_
  simp only [mulf_apply, addf_apply, roundeven_apply, broadcast_apply, cornerY_apply, sizeH_apply, named_invH]
  rfl

/-- Lanes 0–80: the region's class score times the mask. -/
theorem score_apply (k : Fin 81) : k0_pay11 x6 x5 (ix3 c r k) = x5 (ix2 r k) * x6 (ix2 c r) := by
  unfold k0_pay11 k0_pay10
  simp only [shapeCast_self, mulf_apply, Cert.LibBlocks.broadcastTo_1bc_abc_apply,
    Cert.LibBlocks.broadcastTo_ab1_abc_apply, shapeCast_ab_1ab_apply, Cert.LibBlocks.shapeCast_ab_ab1_apply]

end Cert.KernelIdeal.Payload

end
-- ==== Proof.LibSlabs.lean ====
/-
  A block filled slab by slab along its last axis, read at an index.

  When a rank-three block is filled by stores each of which keeps the first two axes whole and takes a run of
  consecutive coordinates on the last, the canonical contents at an index are found by walking the stores, last first:
  a store whose run does not hold the index's last coordinate is passed over, and the store whose run holds it gives
  its payload at the index's position inside the run.
-/
import proofs.«102958_j43843026157745_1_alg».proof.Proof.LibBlocks

namespace Cert.LibSlabs

open Idealize.ShloMosaic Idealize.ShloMosaic.ValueIdx

variable {Val : EltTy → Type} {e : EltTy} [∀ e, Nonempty (Val e)]

/-- Off the last store's slab, the contents are those the earlier stores leave. -/
theorem canon_cons_slab_of_not_mem {a b c n o : ℕ}
    (inb : ∀ ax, (![0, 0, o] : Fin 3 → ℕ) ax + (![a, b, n] : Fin 3 → ℕ) ax ≤ (⟨3, ![a, b, c]⟩ : Shape).size ax)
    (w : (⟨3, ![a, b, n]⟩ : Shape).Idx → Val e) (L : List (View.Piece Val ⟨3, ![a, b, c]⟩ e))
    (p : Fin a) (q : Fin b) (k : Fin c) (hk : k.val < o ∨ o + n ≤ k.val) :
    View.canon ((⟨Rect.unit (s := ⟨3, ![a, b, c]⟩) ![0, 0, o] ![a, b, n] inb, w⟩ : View.Piece Val ⟨3, ![a, b, c]⟩ e) :: L)
        (ix3 p q k) = View.canon L (ix3 p q k) :=
  View.canon_cons_of_not_mem _ L (Cert.LibBlocks.not_mem_slab inb p q k hk)

/-- Under the last store's slab, the contents are its payload at the position inside the slab. -/
theorem canon_cons_slab_emb {a b c n o : ℕ}
    (inb : ∀ ax, (![0, 0, o] : Fin 3 → ℕ) ax + (![a, b, n] : Fin 3 → ℕ) ax ≤ (⟨3, ![a, b, c]⟩ : Shape).size ax)
    (w : (⟨3, ![a, b, n]⟩ : Shape).Idx → Val e) (L : List (View.Piece Val ⟨3, ![a, b, c]⟩ e))
    (p : Fin a) (q : Fin b) (k' : Fin n) (hk : o + k'.val < c) :
    View.canon ((⟨Rect.unit (s := ⟨3, ![a, b, c]⟩) ![0, 0, o] ![a, b, n] inb, w⟩ : View.Piece Val ⟨3, ![a, b, c]⟩ e) :: L)
        (ix3 p q ⟨o + k'.val, hk⟩) = w (ix3 p q k') := by
  rw [← Cert.LibBlocks.slab_emb inb p q k' hk]
  exact View.canon_cons_emb (Rect.unit (s := ⟨3, ![a, b, c]⟩) ![0, 0, o] ![a, b, n] inb) w L (ix3 p q k')

end Cert.LibSlabs
-- ==== Proof.KBlock.lean ====
/-
  The output block read at an index.

  The five stores tile the block along its last axis: lanes 0–80, then 81, 82, 83, 84. An entry (c, r, k) is therefore
  the payload of the one store whose lanes hold k, at the entry's position inside that store: a class score times the
  mask for k ≤ 80, and the left, top, right, bottom number of the decoded box times the mask for k = 81, …, 84.
-/
import proofs.«102958_j43843026157745_1_alg».proof.Proof.KPayload
import proofs.«102958_j43843026157745_1_alg».proof.Proof.LibSlabs

noncomputable section

namespace Cert.KernelIdeal.Block

open Idealize.ShloMosaic Idealize.ShloMosaic.ValueIdx
open Cert.KernelIdeal Cert.KernelIdeal.Gen Cert.KernelIdeal.Body Cert.KernelIdeal.Payload Cert.BoxDecode Cert.LibSlabs

variable (x0 x1 x2 x3 : Vec Ideal S32x80 .f32) (x4 : Vec Ideal S32x4 .f32) (x5 : Vec Ideal S32x81 .f32)
  (x6 : Vec Ideal S80x32 .f32) (r : Fin 32) (c : Fin 80) (k : Fin 85)

/-- Lane 84 is under the last store. -/
theorem block_bottom (hk : k.val = 84) : View.canon (pieces x0 x1 x2 x3 x4 x5 x6) (ix3 c r k)
    = bottom (x1 (ix2 r c)) (x3 (ix2 r c)) (x4 (ix2 r (1 : Fin 4))) (x4 (ix2 r (3 : Fin 4))) * x6 (ix2 c r) := by
  unfold pieces
  have e : ix3 c r k = ix3 c r (⟨84 + ((0 : Fin 1) : ℕ), by decide⟩ : Fin 85) :=
    congrArg (ix3 c r) (Fin.ext (by simpa using hk))
  rw [e, canon_cons_slab_emb]
  exact bottom_apply x1 x3 x4 x6 r c 0

/-- Lane 83 is under the store before it. -/
theorem block_right (hk : k.val = 83) : View.canon (pieces x0 x1 x2 x3 x4 x5 x6) (ix3 c r k)
    = right (x0 (ix2 r c)) (x2 (ix2 r c)) (x4 (ix2 r (0 : Fin 4))) (x4 (ix2 r (2 : Fin 4))) * x6 (ix2 c r) := by
  unfold pieces
  rw [canon_cons_slab_of_not_mem _ _ _ c r k (Or.inl (by omega))]
  have e : ix3 c r k = ix3 c r (⟨83 + ((0 : Fin 1) : ℕ), by decide⟩ : Fin 85) :=
    congrArg (ix3 c r) (Fin.ext (by simpa using hk))
  rw [e, canon_cons_slab_emb]
  exact right_apply x0 x2 x4 x6 r c 0

/-- Lane 82. -/
theorem block_top (hk : k.val = 82) : View.canon (pieces x0 x1 x2 x3 x4 x5 x6) (ix3 c r k)
    = top (x1 (ix2 r c)) (x3 (ix2 r c)) (x4 (ix2 r (1 : Fin 4))) (x4 (ix2 r (3 : Fin 4))) * x6 (ix2 c r) := by
  unfold pieces
  rw [canon_cons_slab_of_not_mem _ _ _ c r k (Or.inl (by omega)),
    canon_cons_slab_of_not_mem _ _ _ c r k (Or.inl (by omega))]
  have e : ix3 c r k = ix3 c r (⟨82 + ((0 : Fin 1) : ℕ), by decide⟩ : Fin 85) :=
    congrArg (ix3 c r) (Fin.ext (by simpa using hk))
  rw [e, canon_cons_slab_emb]
  exact top_apply x1 x3 x4 x6 r c 0

/-- Lane 81. -/
theorem block_left (hk : k.val = 81) : View.canon (pieces x0 x1 x2 x3 x4 x5 x6) (ix3 c r k)
    = left (x0 (ix2 r c)) (x2 (ix2 r c)) (x4 (ix2 r (0 : Fin 4))) (x4 (ix2 r (2 : Fin 4))) * x6 (ix2 c r) := by
  unfold pieces
  rw [canon_cons_slab_of_not_mem _ _ _ c r k (Or.inl (by omega)),
    canon_cons_slab_of_not_mem _ _ _ c r k (Or.inl (by omega)),
    canon_cons_slab_of_not_mem _ _ _ c r k (Or.inl (by omega))]
  have e : ix3 c r k = ix3 c r (⟨81 + ((0 : Fin 1) : ℕ), by decide⟩ : Fin 85) :=
    congrArg (ix3 c r) (Fin.ext (by simpa using hk))
  rw [e, canon_cons_slab_emb]
  exact left_apply x0 x2 x4 x6 r c 0

/-- Lanes 0–80 are under the first store. -/
theorem block_score (hk : k.val < 81) : View.canon (pieces x0 x1 x2 x3 x4 x5 x6) (ix3 c r k)
    = x5 (ix2 r ⟨k.val, hk⟩) * x6 (ix2 c r) := by
  unfold pieces
  rw [canon_cons_slab_of_not_mem _ _ _ c r k (Or.inl (by omega)),
    canon_cons_slab_of_not_mem _ _ _ c r k (Or.inl (by omega)),
    canon_cons_slab_of_not_mem _ _ _ c r k (Or.inl (by omega)),
    canon_cons_slab_of_not_mem _ _ _ c r k (Or.inl (by omega))]
  have e : ix3 c r k = ix3 c r (⟨0 + ((⟨k.val, hk⟩ : Fin 81) : ℕ), by show 0 + k.val < 85; omega⟩ : Fin 85) :=
    congrArg (ix3 c r) (Fin.ext (by simp))
  rw [e, canon_cons_slab_emb]
  exact score_apply x5 x6 r c ⟨k.val, hk⟩

end Cert.KernelIdeal.Block

end
-- ==== Proof.KValue.lean ====
/-
  The program's result read at an index, as a function of its arguments.

  Before the region the host divides the regression row of every region, viewed as [32, 80, 4], by the four standard
  deviations and slices out the four target columns; it views the boxes as [32, 4] and the class scores as [32, 81],
  and turns the integer masks, viewed as [80, 32], into reals. Those are the arrays the region finds. The standardized
  target columns are kept as one opaque function of the regression argument each — the other program computes the
  very same terms —, and the rest are read at an index: box entry (r, j) is argument entry (0, r, j), score entry
  (r, k) is argument entry (0, r, k), and mask entry (c, r) is the integer at (c, 0, r) as a real.
-/
import proofs.«102958_j43843026157745_1_alg».proof.Proof.KArray
import proofs.«102958_j43843026157745_1_alg».proof.Proof.KBlock

set_option maxRecDepth 16384

noncomputable section

namespace Cert.KernelIdeal.Value

open Idealize.ShloMosaic Idealize.ShloMosaic.TcCoe Idealize.ShloMosaic.ValueIdx Idealize.SL.Sem
open Cert.KernelIdeal Cert.KernelIdeal.Gen Cert.KernelIdeal.Body Cert.KernelIdeal.Arr Cert.KernelIdeal.Block
open Cert.BoxDecode Cert.LibBlocks

/-- The regression targets, viewed [32, 80, 4] and divided entry by entry by the four standard deviations. -/
def stdTargets (a0 : FVec Ideal S1x32x320 .f32) : FVec Ideal S32x80x4 .f32 :=
  Host.divf (F := Ideal)
    (shapeCast S32x80x4 (shapeCast S32x320 a0 Facts₀.shapeCasts_S1x32x320_S32x320) Facts₀.shapeCasts_S32x320_S32x80x4)
    (broadcastInDim S32x80x4 ![0, 1, 2] Facts₀.bcast_S1x1x4_S32x80x4_0_1_2
      (broadcastInDim S1x1x4 ![2] Facts₀.bcast_S4_S1x1x4_2 (fun i => FloatOps.ofBits (F := Ideal) .f32 (lit0 (S4.rowMajor i)))))

/-- Its four columns, each over [32, 80]: the targets of the centre along x and y and of the size along x and y. -/
def tcol0 (a0 : FVec Ideal S1x32x320 .f32) : FVec Ideal S32x80 .f32 :=
  shapeCast S32x80 (extractStridedSlice S32x80x1 ![0, 0, 0] (stdTargets a0) Facts₀.slices_S32x80x4_S32x80x1_0_0_0)
    Facts₀.shapeCasts_S32x80x1_S32x80
def tcol1 (a0 : FVec Ideal S1x32x320 .f32) : FVec Ideal S32x80 .f32 :=
  shapeCast S32x80 (extractStridedSlice S32x80x1 ![0, 0, 1] (stdTargets a0) Facts₀.slices_S32x80x4_S32x80x1_0_0_1)
    Facts₀.shapeCasts_S32x80x1_S32x80
def tcol2 (a0 : FVec Ideal S1x32x320 .f32) : FVec Ideal S32x80 .f32 :=
  shapeCast S32x80 (extractStridedSlice S32x80x1 ![0, 0, 2] (stdTargets a0) Facts₀.slices_S32x80x4_S32x80x1_0_0_2)
    Facts₀.shapeCasts_S32x80x1_S32x80
def tcol3 (a0 : FVec Ideal S1x32x320 .f32) : FVec Ideal S32x80 .f32 :=
  shapeCast S32x80 (extractStridedSlice S32x80x1 ![0, 0, 3] (stdTargets a0) Facts₀.slices_S32x80x4_S32x80x1_0_0_3)
    Facts₀.shapeCasts_S32x80x1_S32x80

variable (m : (ℓ : Loc nD τ sig) → Buf (Elt Ideal) ℓ)

/-- The arrays the region finds, as the host operations before it leave them. -/
theorem V_main_v6 (c : Dev nD) : V m c main_v6 = tcol0 (m ((c.tc : Thread nD τ).loc main_arg0)) := by
  show StableHlo.after hostOps0 (fun b => m (c, b)) (Proc.devRef .tc main_v6) = _
  after_results
  rfl
theorem V_main_v8 (c : Dev nD) : V m c main_v8 = tcol1 (m ((c.tc : Thread nD τ).loc main_arg0)) := by
  show StableHlo.after hostOps0 (fun b => m (c, b)) (Proc.devRef .tc main_v8) = _
  after_results
  rfl
theorem V_main_v10 (c : Dev nD) : V m c main_v10 = tcol2 (m ((c.tc : Thread nD τ).loc main_arg0)) := by
  show StableHlo.after hostOps0 (fun b => m (c, b)) (Proc.devRef .tc main_v10) = _
  after_results
  rfl
theorem V_main_v12 (c : Dev nD) : V m c main_v12 = tcol3 (m ((c.tc : Thread nD τ).loc main_arg0)) := by
  show StableHlo.after hostOps0 (fun b => m (c, b)) (Proc.devRef .tc main_v12) = _
  after_results
  rfl
theorem V_main_v13 (c : Dev nD) : V m c main_v13
    = shapeCast S32x4 (m ((c.tc : Thread nD τ).loc main_arg2)) Facts₀.shapeCasts_S1x32x4_S32x4 := by
  show StableHlo.after hostOps0 (fun b => m (c, b)) (Proc.devRef .tc main_v13) = _
  after_results
  rfl
theorem V_main_v14 (c : Dev nD) : V m c main_v14
    = shapeCast S32x81 (m ((c.tc : Thread nD τ).loc main_arg1)) Facts₀.shapeCasts_S1x32x81_S32x81 := by
  show StableHlo.after hostOps0 (fun b => m (c, b)) (Proc.devRef .tc main_v14) = _
  after_results
  rfl
theorem V_main_v16 (c : Dev nD) : V m c main_v16
    = sitofp (F := Ideal) .f32 (shapeCast S80x32 (m ((c.tc : Thread nD τ).loc main_arg4)) Facts₀.shapeCasts_S80x1x32_S80x32) := by
  show StableHlo.after hostOps0 (fun b => m (c, b)) (Proc.devRef .tc main_v16) = _
  after_results
  rfl

variable (c : Dev nD) (q : Fin 80) (z : Fin 1) (r : Fin 32) (k : Fin 85)

/-- Box, score and mask entries in terms of the arguments. -/
theorem box_apply (j : Fin 4) : V m c main_v13 (ix2 r j) = m ((c.tc : Thread nD τ).loc main_arg2) (ix3 (0 : Fin 1) r j) := by
  rw [V_main_v13]; exact shapeCast_1ab_ab_apply _ _ r j
theorem score_apply' (j : Fin 81) : V m c main_v14 (ix2 r j) = m ((c.tc : Thread nD τ).loc main_arg1) (ix3 (0 : Fin 1) r j) := by
  rw [V_main_v14]; exact shapeCast_1ab_ab_apply _ _ r j
theorem mask_apply : V m c main_v16 (ix2 q r)
    = ((((m ((c.tc : Thread nD τ).loc main_arg4) (ix3 q (0 : Fin 1) r)).toInt : ℤ) : ℝ) : EReal) := by
  rw [V_main_v16]
  show FloatOps.sitofp (F := Ideal) .f32 (shapeCast S80x32 (m ((c.tc : Thread nD τ).loc main_arg4)) Facts₀.shapeCasts_S80x1x32_S80x32 (ix2 q r)) = _
  rw [shapeCast_a1b_ab_apply]
  rfl

/-- The result at (q, z, r, k) is the output block at (q, r, k). -/
theorem result_apply : result m c (ix4 q z r k) = blockOut m c (ix3 q r k) :=
  broadcastInDim_abc_a1bc_apply _ _ q z r k

/-- The mask entry of class `q` and region `r`, as a real. -/
abbrev maskAt : EReal := ((((m ((c.tc : Thread nD τ).loc main_arg4) (ix3 q (0 : Fin 1) r)).toInt : ℤ) : ℝ) : EReal)

/-- Score `j` of region `r`. -/
abbrev scoreAt (j : Fin 81) : EReal := m ((c.tc : Thread nD τ).loc main_arg1) (ix3 (0 : Fin 1) r j)

/-- Lanes 0–80: the class score times the mask. -/
theorem result_score (hk : k.val < 81) : result m c (ix4 q z r k)
    = scoreAt m c r ⟨k.val, hk⟩ * maskAt m c q r := by
  rw [result_apply]; unfold blockOut
  rw [block_score _ _ _ _ _ _ _ r q k hk, score_apply', mask_apply]

/-- Lanes 81–84: the decoded box's four numbers times the mask. -/
theorem result_left (hk : k.val = 81) : result m c (ix4 q z r k)
    = left (tcol0 (m ((c.tc : Thread nD τ).loc main_arg0)) (ix2 r q)) (tcol2 (m ((c.tc : Thread nD τ).loc main_arg0)) (ix2 r q))
        (m ((c.tc : Thread nD τ).loc main_arg2) (ix3 (0 : Fin 1) r (0 : Fin 4)))
        (m ((c.tc : Thread nD τ).loc main_arg2) (ix3 (0 : Fin 1) r (2 : Fin 4))) * maskAt m c q r := by
  rw [result_apply]; unfold blockOut
  rw [block_left _ _ _ _ _ _ _ r q k hk, box_apply, box_apply, mask_apply, V_main_v6, V_main_v10]
theorem result_top (hk : k.val = 82) : result m c (ix4 q z r k)
    = top (tcol1 (m ((c.tc : Thread nD τ).loc main_arg0)) (ix2 r q)) (tcol3 (m ((c.tc : Thread nD τ).loc main_arg0)) (ix2 r q))
        (m ((c.tc : Thread nD τ).loc main_arg2) (ix3 (0 : Fin 1) r (1 : Fin 4)))
        (m ((c.tc : Thread nD τ).loc main_arg2) (ix3 (0 : Fin 1) r (3 : Fin 4))) * maskAt m c q r := by
  rw [result_apply]; unfold blockOut
  rw [block_top _ _ _ _ _ _ _ r q k hk, box_apply, box_apply, mask_apply, V_main_v8, V_main_v12]
theorem result_right (hk : k.val = 83) : result m c (ix4 q z r k)
    = right (tcol0 (m ((c.tc : Thread nD τ).loc main_arg0)) (ix2 r q)) (tcol2 (m ((c.tc : Thread nD τ).loc main_arg0)) (ix2 r q))
        (m ((c.tc : Thread nD τ).loc main_arg2) (ix3 (0 : Fin 1) r (0 : Fin 4)))
        (m ((c.tc : Thread nD τ).loc main_arg2) (ix3 (0 : Fin 1) r (2 : Fin 4))) * maskAt m c q r := by
  rw [result_apply]; unfold blockOut
  rw [block_right _ _ _ _ _ _ _ r q k hk, box_apply, box_apply, mask_apply, V_main_v6, V_main_v10]
theorem result_bottom (hk : k.val = 84) : result m c (ix4 q z r k)
    = bottom (tcol1 (m ((c.tc : Thread nD τ).loc main_arg0)) (ix2 r q)) (tcol3 (m ((c.tc : Thread nD τ).loc main_arg0)) (ix2 r q))
        (m ((c.tc : Thread nD τ).loc main_arg2) (ix3 (0 : Fin 1) r (1 : Fin 4)))
        (m ((c.tc : Thread nD τ).loc main_arg2) (ix3 (0 : Fin 1) r (3 : Fin 4))) * maskAt m c q r := by
  rw [result_apply]; unfold blockOut
  rw [block_bottom _ _ _ _ _ _ _ r q k hk, box_apply, box_apply, mask_apply, V_main_v8, V_main_v12]

end Cert.KernelIdeal.Value

end
-- ==== Proof.Bridge.lean ====
/-
  The two programs compute one function.

  Entry (q, 0, r, k) of either result is, for k ≤ 80, the class score of region r times the mask of class q for that
  region, and for k = 81, …, 84 the left, top, right, bottom number of class q's decoded box for region r times the
  same mask. Both sides read the same arguments at the same indices, and the standardized targets are the same terms
  of the regression argument on both sides, so the two results agree entry by entry on the extended reals.
-/
import proofs.«102958_j43843026157745_1_alg».proof.Proof.KValue
import proofs.«102958_j43843026157745_1_alg».proof.Proof.RefValue

noncomputable section

namespace Cert.Bridge

open Idealize.ShloMosaic Idealize.ShloMosaic.TcCoe Idealize.ShloMosaic.ValueIdx Idealize.SL.Sem

/-- The standardized target columns are spelt alike on both sides. -/
theorem tcol0_eq (a0 : FVec Ideal Cert.KernelIdeal.S1x32x320 .f32) : Cert.KernelIdeal.Value.tcol0 a0 = Cert.ReferenceIdeal.RefValue.tcol0 a0 := rfl
theorem tcol1_eq (a0 : FVec Ideal Cert.KernelIdeal.S1x32x320 .f32) : Cert.KernelIdeal.Value.tcol1 a0 = Cert.ReferenceIdeal.RefValue.tcol1 a0 := rfl
theorem tcol2_eq (a0 : FVec Ideal Cert.KernelIdeal.S1x32x320 .f32) : Cert.KernelIdeal.Value.tcol2 a0 = Cert.ReferenceIdeal.RefValue.tcol2 a0 := rfl
theorem tcol3_eq (a0 : FVec Ideal Cert.KernelIdeal.S1x32x320 .f32) : Cert.KernelIdeal.Value.tcol3 a0 = Cert.ReferenceIdeal.RefValue.tcol3 a0 := rfl

/-- The kernel program's result is the reference's function of the same arguments. -/
theorem result_eq (m : (ℓ : Loc Cert.KernelIdeal.nD Cert.KernelIdeal.τ Cert.KernelIdeal.sig) → Buf (Elt Ideal) ℓ) (c : Dev Cert.KernelIdeal.nD) :
    Cert.KernelIdeal.Arr.result m c = Cert.ReferenceIdeal.RefValue.out (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg4)) := by
  funext i
  obtain ⟨q, z, r, k, rfl⟩ : ∃ (q : Fin 80) (z : Fin 1) (r : Fin 32) (k : Fin 85), i = ix4 q z r k :=
    ⟨i 0, i 1, i 2, i 3, eq_ix4 i⟩
  have hz : z = 0 := Subsingleton.elim _ _
  subst hz
  rcases Nat.lt_or_ge k.val 81 with hk | hk
  · rw [Cert.KernelIdeal.Value.result_score m c q 0 r k hk, Cert.ReferenceIdeal.RefValue.out_cls _ _ _ _ q 0 r k hk]
  · have h4 : k.val = 81 ∨ k.val = 82 ∨ k.val = 83 ∨ k.val = 84 := by have := k.isLt; omega
    rcases h4 with h | h | h | h
    · rw [Cert.KernelIdeal.Value.result_left m c q 0 r k h, Cert.ReferenceIdeal.RefValue.out_left _ _ _ _ q 0 r k h, tcol0_eq, tcol2_eq]
    · rw [Cert.KernelIdeal.Value.result_top m c q 0 r k h, Cert.ReferenceIdeal.RefValue.out_top _ _ _ _ q 0 r k h, tcol1_eq, tcol3_eq]
    · rw [Cert.KernelIdeal.Value.result_right m c q 0 r k h, Cert.ReferenceIdeal.RefValue.out_right _ _ _ _ q 0 r k h, tcol0_eq, tcol2_eq]
    · rw [Cert.KernelIdeal.Value.result_bottom m c q 0 r k h, Cert.ReferenceIdeal.RefValue.out_bottom _ _ _ _ q 0 r k h, tcol1_eq, tcol3_eq]

end Cert.Bridge

end
-- ==== Proof.lean ====
/-
  Box decoding with a class mask: a kernel against its reference, on the extended reals.

  Both programs take regression targets, class scores, region boxes and integer class masks and return, for each of
  80 classes and 32 regions, the region's 81 class scores followed by the class's decoded box — left, top, right, bottom
  as fractions of a 1000 × 600 image — every entry multiplied by the class's mask for that region. The kernel program
  computes the box in one kernel over whole arrays and scales by the reciprocals 1/1000 and 1/600, named so that they
  denote those rationals; the reference divides by 1000 and 600. On the extended reals the quotient by a nonzero real is
  the product with its reciprocal, so the two results are one function of the arguments (Proof/Bridge.lean), with no
  use of the inputs' finiteness.

  The frames of the two kernel programs are the generated ones; the reference has no kernel, and its frame is its run
  with the result forgotten. The four recorded rewrites are the two named constants, each used twice.
-/
import proofs.«102958_j43843026157745_1_alg».proof.Defs
import proofs.«102958_j43843026157745_1_alg».proof.Proof.Gen.Kernel
import proofs.«102958_j43843026157745_1_alg».proof.Proof.Gen.Kernel.Frame
import proofs.«102958_j43843026157745_1_alg».proof.Proof.Gen.KernelIdeal
import proofs.«102958_j43843026157745_1_alg».proof.Proof.Gen.KernelIdeal.Frame
import proofs.«102958_j43843026157745_1_alg».proof.Proof.Gen.ReferenceIdeal
import proofs.«102958_j43843026157745_1_alg».proof.Proof.Gen.Pre_finite_inputs
import proofs.«102958_j43843026157745_1_alg».proof.Proof.KArray
import proofs.«102958_j43843026157745_1_alg».proof.Proof.RefValue
import proofs.«102958_j43843026157745_1_alg».proof.Proof.Bridge
import Idealize.ShloMosaic.PureOps.IdealRules

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's run, its result forgotten. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefValue.run m ρ)

/-- The two named reciprocals denote 1/1000 and 1/600; each is used twice in the body. -/
theorem preserves : Cert.preserves_Kernel_KernelIdeal :=
  ⟨IdealRules.named_const.statement Cert.KernelIdeal.κ "inv_1000" .f32 0x3A83126F#32 ((1 / 1000 : ℝ) : EReal) rfl,
    IdealRules.named_const.statement Cert.KernelIdeal.κ "inv_600" .f32 0x3ADA740E#32 ((1 / 600 : ℝ) : EReal) rfl,
    IdealRules.named_const.statement Cert.KernelIdeal.κ "inv_1000" .f32 0x3A83126F#32 ((1 / 1000 : ℝ) : EReal) rfl,
    IdealRules.named_const.statement Cert.KernelIdeal.κ "inv_600" .f32 0x3ADA740E#32 ((1 / 600 : ℝ) : EReal) rfl⟩

/-- From memories that agree on the arguments both programs end at the same result. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.2]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
